-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S1600000 : Shape := ⟨1, ![1600000]⟩
abbrev S160x128 : Shape := ⟨2, ![160, 128]⟩
abbrev S192x128 : Shape := ⟨2, ![192, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x128 : S_.BroadcastsInDim S160x128 (![] : Fin 0 → Fin S160x128.rank)
  reducesTo_S160x128_S_d0_1 : S160x128.ReducesTo [0, 1] S_
  bcast_S_S192x128 : S_.BroadcastsInDim S192x128 (![] : Fin 0 → Fin S192x128.rank)
  reducesTo_S192x128_S_d0_1 : S192x128.ReducesTo [0, 1] S_

variable [Facts]

def fn_part1 {F : FTy → Type} [FloatOps F] (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  main_v18

def fn {F : FTy → Type} [FloatOps F] (main_arg0 : FVec F S100000x64 .f32) (main_arg1 : FVec F S1600000x32 .f32) (main_arg2 : IVec S1600000 32) (main_arg3 : IVec S1600000 32) (main_arg4 : FVec F S160x128 .f32) (main_arg5 : FVec F S192x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x128 .f32 := Host.absf main_arg4
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S192x128 .f32 := Host.absf main_arg5
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_v13 main_v16
-- ==== Kernel.lean ====
abbrev S100000x64 : Shape := ⟨2, ![100000, 64]⟩
abbrev S1600000x32 : Shape := ⟨2, ![1600000, 32]⟩
abbrev S1600000 : Shape := ⟨1, ![1600000]⟩
abbrev S160x128 : Shape := ⟨2, ![160, 128]⟩
abbrev S192x128 : Shape := ⟨2, ![192, 128]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S32x128 : Shape := ⟨2, ![32, 128]⟩
abbrev S1600000x128 : Shape := ⟨2, ![1600000, 128]⟩
abbrev S8000x64 : Shape := ⟨2, ![8000, 64]⟩
abbrev S8000x32 : Shape := ⟨2, ![8000, 32]⟩
abbrev S8000x128 : Shape := ⟨2, ![8000, 128]⟩
abbrev S100000x128 : Shape := ⟨2, ![100000, 128]⟩
abbrev S100000 : Shape := ⟨1, ![100000]⟩
abbrev S100000x1 : Shape := ⟨2, ![100000, 1]⟩
abbrev S128x128 : Shape := ⟨2, ![128, 128]⟩
abbrev S5000x64 : Shape := ⟨2, ![5000, 64]⟩
abbrev S5000x128 : Shape := ⟨2, ![5000, 128]⟩

abbrev nBuf : Space → Nat
  | .hbm => 56
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S160x128, .f32⟩
  | .hbm, ⟨5, _⟩ => ⟨S192x128, .f32⟩
  | .hbm, ⟨6, _⟩ => ⟨S100000x64, .bf16⟩
  | .hbm, ⟨7, _⟩ => ⟨S1600000x32, .bf16⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .bf16⟩
  | .hbm, ⟨26, _⟩ => ⟨S64x128, .f32⟩
  | .hbm, ⟨27, _⟩ => ⟨S64x128, .bf16⟩
  | .hbm, ⟨28, _⟩ => ⟨S64x128, .f32⟩
  | .hbm, ⟨29, _⟩ => ⟨S64x128, .bf16⟩
  | .hbm, ⟨30, _⟩ => ⟨S32x128, .f32⟩
  | .hbm, ⟨31, _⟩ => ⟨S32x128, .bf16⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S1600000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .bf16⟩
  | .hbm, ⟨51, _⟩ => ⟨S64x128, .f32⟩
  | .hbm, ⟨52, _⟩ => ⟨S64x128, .bf16⟩
  | .hbm, ⟨53, _⟩ => ⟨S128x128, .f32⟩
  | .hbm, ⟨54, _⟩ => ⟨S128x128, .bf16⟩
  | .hbm, ⟨55, _⟩ => ⟨S100000x128, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x32, .bf16⟩
  | .local _ .vmem, ⟨5, _⟩ => ⟨S8000x32, .bf16⟩
  | .local _ .vmem, ⟨6, _⟩ => ⟨S64x128, .bf16⟩
  | .local _ .vmem, ⟨7, _⟩ => ⟨S64x128, .bf16⟩
  | .local _ .vmem, ⟨8, _⟩ => ⟨S32x128, .bf16⟩
  | .local _ .vmem, ⟨9, _⟩ => ⟨S8000x128, .bf16⟩
  | .local _ .vmem, ⟨10, _⟩ => ⟨S8000x128, .bf16⟩
  | .local _ .vmem, ⟨11, _⟩ => ⟨S5000x64, .bf16⟩
  | .local _ .vmem, ⟨12, _⟩ => ⟨S5000x64, .bf16⟩
  | .local _ .vmem, ⟨13, _⟩ => ⟨S5000x128, .bf16⟩
  | .local _ .vmem, ⟨14, _⟩ => ⟨S5000x128, .bf16⟩
  | .local _ .vmem, ⟨15, _⟩ => ⟨S64x128, .bf16⟩
  | .local _ .vmem, ⟨16, _⟩ => ⟨S128x128, .bf16⟩
  | .local _ .vmem, ⟨17, _⟩ => ⟨S5000x128, .f32⟩
  | .local _ .vmem, ⟨18, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S160x128_S64x128_0_0 : S160x128.Slices ![0, 0] S64x128
  slices_S160x128_S64x128_64_0 : S160x128.Slices ![64, 0] S64x128
  slices_S160x128_S32x128_128_0 : S160x128.Slices ![128, 0] S32x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S192x128_S64x128_0_0 : S192x128.Slices ![0, 0] S64x128
  slices_S192x128_S128x128_64_0 : S192x128.Slices ![64, 0] S128x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x64_S1600000x1_S1600000x64_1_0_n_n_0_1_164_wf : GatherDims.WF S100000x64 S1600000x1 S1600000x64 [1] [0] [] [0] [] 1 ![1, 64]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .bf16 = 32 ∨ (Rect.block (s := S1600000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .bf16 = 32 ∨ (Rect.block (s := S1600000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .bf16 = 32 ∨ (Rect.block (s := S1600000x32) S8000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S1600000x128.size a
  hwx0_6 : ∀ i : grid0.Coords, EltTy.bits .bf16 = 32 ∨ (Rect.block (s := S1600000x128) S8000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S1600000 : Shape := ⟨1, ![1600000]⟩
abbrev S160x128 : Shape := ⟨2, ![160, 128]⟩
abbrev S192x128 : Shape := ⟨2, ![192, 128]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S100000x192 : Shape := ⟨2, ![100000, 192]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S160x128, .f32⟩
  | .hbm, ⟨5, _⟩ => ⟨S192x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x160, .f32⟩
  | .hbm, ⟨25, _⟩ => ⟨S1600000x128, .f32⟩
  | .hbm, ⟨26, _⟩ => ⟨S_, .f32⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x192, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .i1⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_v31 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x64_S100000x128_S100000x192_d1 : Shape.Concatenates [S100000x64, S100000x128] S100000x192 1
  gather_S100000x64_S1600000x1_S1600000x64_1_0_n_n_0_1_164_wf : GatherDims.WF S100000x64 S1600000x1 S1600000x64 [1] [0] [] [0] [] 1 ![1, 64]
  dot_S1600000x160_S160x128_S1600000x128_1_0_0_1_n_n_wf : DotDims.WF S1600000x160 S160x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x192_S192x128_S100000x128_1_0_0_1_n_n_wf : DotDims.WF S100000x192 S192x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.KernelRun.lean ====
/-
  The idealized kernel's run with its result named.

  The program is four stretches in a row: host operations, the message region, host operations, the update region. The
  contents of every buffer at each boundary are a fold from the launch memory: a stretch of host operations rewrites the
  buffers it computes, a region rewrites its output array with what its write-backs leave. Every weakly fair execution
  terminates with every unscoped buffer at the last boundary's contents; read at the result buffer, that is the update
  region's output array, and read at an argument it is the launch contents.
-/
import proofs.«106164_j70626442215972_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument arrays as launched. -/
theorem run_main : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«106164_j70626442215972_1_alg».proof.Proof.LibMatmulPlain
import proofs.«106164_j70626442215972_1_alg».proof.Proof.LibDotsNT
import proofs.«106164_j70626442215972_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibSage.lean ====
/-
  The dense steps of a two-layer bipartite graph network, read at an entry, on the extended reals.

  For a block of aggregated neighbour features A : [a, k], the block's own features X : [a, k'], weight matrices
  Wl : [k, n] and Wr : [k', n] and a bias row B : [1, n], one layer computes the pre-activation
      pre(r, q) = (sum over c of A(r, c) * Wl(c, q)) + B(0, q) + (sum over c of X(r, c) * Wr(c, q))
  and then the leaky rectifier: x where x is at least zero and a tenth of x below (`leaky`, spelled as both programs
  spell it: a comparison with zero selecting between x and t * x).  The last layer is followed by a linear head
  (`head`): the rectified block times Wo : [n, o] plus a bias row.  The encoder (`enc`) is the mean of two biased
  products, spelled as a product with one half.

  Every one of these depends on the row r of the feature blocks only, so it commutes with cutting a block of
  consecutive rows out of a taller array (`rows`): the value on the block is the value on the array at the row moved
  by the block's offset.
-/
import Idealize.ShloMosaic.Lib.Pipeline.Value
import Idealize.ShloMosaic.Lib.ValueIdx
import Idealize.ShloMosaic.PureOps.Ideal.Laws
import proofs.«106164_j70626442215972_1_alg».proof.Proof.LibDenseLayer

noncomputable section

open scoped BigOperators

namespace Cert.Sage

open Idealize.ShloMosaic Idealize.ShloMosaic.ValueIdx

variable {a k k' n o N : ℕ}

/-- The leaky rectifier with threshold `z` and slope `t`: `x` when `x` is at least `z`, and `t * x` otherwise. -/
def leaky (z t x : EReal) : EReal :=
  Scalar.select (FloatOps.cmpf (F := Ideal) (φ := .f32) .oge x z) x (t * x)

/-- The pre-activation of one layer at an entry. -/
def pre (A : (⟨2, ![a, k]⟩ : Shape).Idx → EReal) (Wl : (⟨2, ![k, n]⟩ : Shape).Idx → EReal)
    (B : (⟨2, ![1, n]⟩ : Shape).Idx → EReal) (X : (⟨2, ![a, k']⟩ : Shape).Idx → EReal)
    (Wr : (⟨2, ![k', n]⟩ : Shape).Idx → EReal) : (⟨2, ![a, n]⟩ : Shape).Idx → EReal :=
  fun i => Cert.Dense.biased A Wl B i + Cert.Dense.prod X Wr i

/-- One layer: the rectified pre-activation. -/
def act (z t : EReal) (A : (⟨2, ![a, k]⟩ : Shape).Idx → EReal) (Wl : (⟨2, ![k, n]⟩ : Shape).Idx → EReal)
    (B : (⟨2, ![1, n]⟩ : Shape).Idx → EReal) (X : (⟨2, ![a, k']⟩ : Shape).Idx → EReal)
    (Wr : (⟨2, ![k', n]⟩ : Shape).Idx → EReal) : (⟨2, ![a, n]⟩ : Shape).Idx → EReal :=
  fun i => leaky z t (pre A Wl B X Wr i)

/-- The last layer followed by the linear head. -/
def head (z t : EReal) (A : (⟨2, ![a, k]⟩ : Shape).Idx → EReal) (Wl : (⟨2, ![k, n]⟩ : Shape).Idx → EReal)
    (B : (⟨2, ![1, n]⟩ : Shape).Idx → EReal) (X : (⟨2, ![a, k']⟩ : Shape).Idx → EReal)
    (Wr : (⟨2, ![k', n]⟩ : Shape).Idx → EReal) (Wo : (⟨2, ![n, o]⟩ : Shape).Idx → EReal)
    (Bo : (⟨2, ![1, o]⟩ : Shape).Idx → EReal) : (⟨2, ![a, o]⟩ : Shape).Idx → EReal :=
  Cert.Dense.biased (act z t A Wl B X Wr) Wo Bo

/-- The encoder: the sum of two biased products times `h` (one half). -/
def enc (h : EReal) (A : (⟨2, ![a, k]⟩ : Shape).Idx → EReal) (Wa : (⟨2, ![k, n]⟩ : Shape).Idx → EReal)
    (Ba : (⟨2, ![1, n]⟩ : Shape).Idx → EReal) (X : (⟨2, ![a, k']⟩ : Shape).Idx → EReal)
    (Wb : (⟨2, ![k', n]⟩ : Shape).Idx → EReal) (Bb : (⟨2, ![1, n]⟩ : Shape).Idx → EReal) :
    (⟨2, ![a, n]⟩ : Shape).Idx → EReal :=
  fun i => (Cert.Dense.biased A Wa Ba i + Cert.Dense.biased X Wb Bb i) * h

/-- The block of `a` consecutive rows of a taller array that starts at row `off`. -/
def rows (off : ℕ) (hoff : off + a ≤ N) (A : (⟨2, ![N, k]⟩ : Shape).Idx → EReal) :
    (⟨2, ![a, k]⟩ : Shape).Idx → EReal :=
  fun y => A (ix2 (⟨off + (y 0).val, by have h : (y 0).val < a := (y 0).isLt; omega⟩ : Fin N) (y 1))

theorem rows_ix2 (off : ℕ) (hoff : off + a ≤ N) (A : (⟨2, ![N, k]⟩ : Shape).Idx → EReal) (p : Fin a) (c : Fin k) :
    rows off hoff A (ix2 p c) = A (ix2 (⟨off + p.val, by omega⟩ : Fin N) c) := rfl

/-- A product of a row block is the product of the array at the moved row. -/
theorem prod_rows (off : ℕ) (hoff : off + a ≤ N) (A : (⟨2, ![N, k]⟩ : Shape).Idx → EReal)
    (W : (⟨2, ![k, n]⟩ : Shape).Idx → EReal) (p : Fin a) (q : Fin n) :
    Cert.Dense.prod (rows off hoff A) W (ix2 p q) = Cert.Dense.prod A W (ix2 (⟨off + p.val, by omega⟩ : Fin N) q) := rfl

theorem biased_rows (off : ℕ) (hoff : off + a ≤ N) (A : (⟨2, ![N, k]⟩ : Shape).Idx → EReal)
    (W : (⟨2, ![k, n]⟩ : Shape).Idx → EReal) (B : (⟨2, ![1, n]⟩ : Shape).Idx → EReal) (p : Fin a) (q : Fin n) :
    Cert.Dense.biased (rows off hoff A) W B (ix2 p q)
      = Cert.Dense.biased A W B (ix2 (⟨off + p.val, by omega⟩ : Fin N) q) := rfl

theorem enc_rows (h : EReal) (off : ℕ) (hoff : off + a ≤ N) (A : (⟨2, ![N, k]⟩ : Shape).Idx → EReal)
    (Wa : (⟨2, ![k, n]⟩ : Shape).Idx → EReal) (Ba : (⟨2, ![1, n]⟩ : Shape).Idx → EReal)
    (X : (⟨2, ![N, k']⟩ : Shape).Idx → EReal) (Wb : (⟨2, ![k', n]⟩ : Shape).Idx → EReal)
    (Bb : (⟨2, ![1, n]⟩ : Shape).Idx → EReal) (p : Fin a) (q : Fin n) :
    enc h (rows off hoff A) Wa Ba (rows off hoff X) Wb Bb (ix2 p q)
      = enc h A Wa Ba X Wb Bb (ix2 (⟨off + p.val, by omega⟩ : Fin N) q) := rfl

theorem act_rows (z t : EReal) (off : ℕ) (hoff : off + a ≤ N) (A : (⟨2, ![N, k]⟩ : Shape).Idx → EReal)
    (Wl : (⟨2, ![k, n]⟩ : Shape).Idx → EReal) (B : (⟨2, ![1, n]⟩ : Shape).Idx → EReal)
    (X : (⟨2, ![N, k']⟩ : Shape).Idx → EReal) (Wr : (⟨2, ![k', n]⟩ : Shape).Idx → EReal) (p : Fin a) (q : Fin n) :
    act z t (rows off hoff A) Wl B (rows off hoff X) Wr (ix2 p q)
      = act z t A Wl B X Wr (ix2 (⟨off + p.val, by omega⟩ : Fin N) q) := rfl

theorem head_rows (z t : EReal) (off : ℕ) (hoff : off + a ≤ N) (A : (⟨2, ![N, k]⟩ : Shape).Idx → EReal)
    (Wl : (⟨2, ![k, n]⟩ : Shape).Idx → EReal) (B : (⟨2, ![1, n]⟩ : Shape).Idx → EReal)
    (X : (⟨2, ![N, k']⟩ : Shape).Idx → EReal) (Wr : (⟨2, ![k', n]⟩ : Shape).Idx → EReal)
    (Wo : (⟨2, ![n, o]⟩ : Shape).Idx → EReal) (Bo : (⟨2, ![1, o]⟩ : Shape).Idx → EReal) (p : Fin a) (q : Fin o) :
    head z t (rows off hoff A) Wl B (rows off hoff X) Wr Wo Bo (ix2 p q)
      = head z t A Wl B X Wr Wo Bo (ix2 (⟨off + p.val, by omega⟩ : Fin N) q) := rfl

end Cert.Sage

end
-- ==== Proof.LibConcatSpec.lean ====
/-
  Three arrays laid side by side, and a bias row added before a clamp at zero — both as functions of an index.

  For arrays A : [N, n1], B : [N, n2], C : [N, n3] the array `Concat.spec` : [N, w], w = n1 + n2 + n3, has in row r
  the n1 entries of A's row r, then the n2 entries of B's row r, then the n3 entries of C's row r: column q reads
  A(r, q) while q < n1, B(r, q - n1) while q < n1 + n2, and C(r, q - n1 - n2) after that.  The host's concatenation
  of the three arrays along axis 1 is this array.

  For an array X : [N, n] and a row b : [1, n], `Relu.biasedRelu` is max(X(r, q) + b(0, q), 0) at (r, q), the zero
  being the value of the all-zero binary32 word.  The host spells it with the row laid over the rows by a
  broadcast_in_dim, an add, and a maximum against a scalar zero laid over the whole array.
-/
import Idealize.ShloMosaic.Lib.Pipeline.Value
import Idealize.ShloMosaic.Lib.ValueIdx
import Idealize.ShloMosaic.Lib.ValueLayout
import Idealize.ShloMosaic.PureOps.Ideal.Laws
import proofs.«106164_j70626442215972_1_alg».proof.Proof.LibDenseLayer

noncomputable section

namespace Cert

open Idealize.ShloMosaic Idealize.ShloMosaic.ValueIdx

/-- Three arrays of the same height side by side: column q of the result is column q of A, then column q - n1 of B,
    then column q - n1 - n2 of C. The total width w is its own variable, tied to the three widths by `hw`. -/
def Concat.spec {N n1 n2 n3 w : ℕ} (hw : n1 + n2 + n3 = w)
    (A : (⟨2, ![N, n1]⟩ : Shape).Idx → EReal) (B : (⟨2, ![N, n2]⟩ : Shape).Idx → EReal)
    (C : (⟨2, ![N, n3]⟩ : Shape).Idx → EReal) : (⟨2, ![N, w]⟩ : Shape).Idx → EReal :=
  fun i =>
    if h1 : (i 1).val < n1 then A (ix2 (i 0) ⟨(i 1).val, h1⟩)
    else if h2 : (i 1).val < n1 + n2 then B (ix2 (i 0) ⟨(i 1).val - n1, by omega⟩)
    else C (ix2 (i 0) ⟨(i 1).val - n1 - n2, by have := idx2_lt1 i; omega⟩)

/-- max(X + b, 0), the row b added to every row of X; the zero is the value of the word 0x00000000. -/
def Relu.biasedRelu {N n : ℕ} (X : (⟨2, ![N, n]⟩ : Shape).Idx → EReal) (b : (⟨2, ![1, n]⟩ : Shape).Idx → EReal) :
    (⟨2, ![N, n]⟩ : Shape).Idx → EReal :=
  fun i => max (X i + b (ix2 (0 : Fin 1) (i 1))) (Ideal.ofBits .f32 0x00000000#32)

namespace Concat

variable {N n1 n2 n3 w : ℕ}

/-- In the first n1 columns the array is A. -/
theorem spec_left (hw : n1 + n2 + n3 = w) (A : (⟨2, ![N, n1]⟩ : Shape).Idx → EReal)
    (B : (⟨2, ![N, n2]⟩ : Shape).Idx → EReal) (C : (⟨2, ![N, n3]⟩ : Shape).Idx → EReal)
    (r : Fin N) (q : Fin w) (q' : Fin n1) (h : q'.val = q.val) : spec hw A B C (ix2 r q) = A (ix2 r q') := by
  have h1 : q.val < n1 := h ▸ q'.isLt
  show (if h1 : q.val < n1 then A (ix2 r ⟨q.val, h1⟩) else _) = _
  rw [dif_pos h1]
  exact congrArg (fun z => A (ix2 r z)) (Fin.ext h.symm)

/-- In the next n2 columns it is B, shifted by n1. -/
theorem spec_mid (hw : n1 + n2 + n3 = w) (A : (⟨2, ![N, n1]⟩ : Shape).Idx → EReal)
    (B : (⟨2, ![N, n2]⟩ : Shape).Idx → EReal) (C : (⟨2, ![N, n3]⟩ : Shape).Idx → EReal)
    (r : Fin N) (q : Fin w) (q' : Fin n2) (h : n1 + q'.val = q.val) : spec hw A B C (ix2 r q) = B (ix2 r q') := by
  have h1 : ¬ q.val < n1 := by omega
  have h2 : q.val < n1 + n2 := by have := q'.isLt; omega
  show (if h1 : q.val < n1 then A (ix2 r ⟨q.val, h1⟩)
    else if h2 : q.val < n1 + n2 then B (ix2 r ⟨q.val - n1, _⟩) else _) = _
  rw [dif_neg h1, dif_pos h2]
  exact congrArg (fun z => B (ix2 r z)) (Fin.ext (by show q.val - n1 = q'.val; omega))

/-- In the last n3 columns it is C, shifted by n1 + n2. -/
theorem spec_right (hw : n1 + n2 + n3 = w) (A : (⟨2, ![N, n1]⟩ : Shape).Idx → EReal)
    (B : (⟨2, ![N, n2]⟩ : Shape).Idx → EReal) (C : (⟨2, ![N, n3]⟩ : Shape).Idx → EReal)
    (r : Fin N) (q : Fin w) (q' : Fin n3) (h : n1 + n2 + q'.val = q.val) : spec hw A B C (ix2 r q) = C (ix2 r q') := by
  have h1 : ¬ q.val < n1 := by omega
  have h2 : ¬ q.val < n1 + n2 := by omega
  show (if h1 : q.val < n1 then A (ix2 r ⟨q.val, h1⟩)
    else if h2 : q.val < n1 + n2 then B (ix2 r ⟨q.val - n1, _⟩) else C (ix2 r ⟨q.val - n1 - n2, _⟩)) = _
  rw [dif_neg h1, dif_neg h2]
  exact congrArg (fun z => C (ix2 r z)) (Fin.ext (by show q.val - n1 - n2 = q'.val; omega))

/-- The host's concatenation of the three arrays along axis 1 is the array above: the piece whose span of columns
    holds q is read at q less the widths before it. -/
theorem concatenate_eq_spec (hw : n1 + n2 + n3 = w) (A : (⟨2, ![N, n1]⟩ : Shape).Idx → EReal)
    (B : (⟨2, ![N, n2]⟩ : Shape).Idx → EReal) (C : (⟨2, ![N, n3]⟩ : Shape).Idx → EReal)
    (h : Shape.Concatenates [(⟨2, ![N, n1]⟩ : Shape), ⟨2, ![N, n2]⟩, ⟨2, ![N, n3]⟩] (⟨2, ![N, w]⟩ : Shape) 1) :
    concatenate (⟨2, ![N, w]⟩ : Shape) 1 [⟨(⟨2, ![N, n1]⟩ : Shape), A⟩, ⟨(⟨2, ![N, n2]⟩ : Shape), B⟩, ⟨(⟨2, ![N, n3]⟩ : Shape), C⟩] h
      = spec hw A B C := by
  funext j
  obtain ⟨r, q, rfl⟩ : ∃ (r : Fin N) (q : Fin w), j = ix2 r q := ⟨j 0, j 1, eq_ix2 j⟩
  have hq : q.val < w := q.isLt
  by_cases h1 : q.val < n1
  · rw [spec_left hw A B C r q ⟨q.val, h1⟩ rfl]
    refine concatenate_apply_piece (t := (⟨2, ![N, w]⟩ : Shape)) (1 : Fin 2) [⟨(⟨2, ![N, n1]⟩ : Shape), A⟩, ⟨(⟨2, ![N, n2]⟩ : Shape), B⟩, ⟨(⟨2, ![N, n3]⟩ : Shape), C⟩] h (ix2 r q) 0 (by simp) (⟨2, ![N, n1]⟩ : Shape) A rfl rfl 0 rfl
      (ix2 r ⟨q.val, h1⟩) (fun b hb => ?_) ?_
    · match b with
      | ⟨0, _⟩ => rfl
      | ⟨1, _⟩ => exact absurd rfl hb
    · show 0 + q.val = q.val
      omega
  · by_cases h2 : q.val < n1 + n2
    · rw [spec_mid hw A B C r q ⟨q.val - n1, by omega⟩ (by show n1 + (q.val - n1) = q.val; omega)]
      refine concatenate_apply_piece (t := (⟨2, ![N, w]⟩ : Shape)) (1 : Fin 2) [⟨(⟨2, ![N, n1]⟩ : Shape), A⟩, ⟨(⟨2, ![N, n2]⟩ : Shape), B⟩, ⟨(⟨2, ![N, n3]⟩ : Shape), C⟩] h (ix2 r q) 1 (by simp) (⟨2, ![N, n2]⟩ : Shape) B rfl rfl n1 rfl
        (ix2 r ⟨q.val - n1, by omega⟩) (fun b hb => ?_) ?_
      · match b with
        | ⟨0, _⟩ => rfl
        | ⟨1, _⟩ => exact absurd rfl hb
      · show n1 + (q.val - n1) = q.val
        omega
    · rw [spec_right hw A B C r q ⟨q.val - n1 - n2, by omega⟩ (by show n1 + n2 + (q.val - n1 - n2) = q.val; omega)]
      refine concatenate_apply_piece (t := (⟨2, ![N, w]⟩ : Shape)) (1 : Fin 2) [⟨(⟨2, ![N, n1]⟩ : Shape), A⟩, ⟨(⟨2, ![N, n2]⟩ : Shape), B⟩, ⟨(⟨2, ![N, n3]⟩ : Shape), C⟩] h (ix2 r q) 2 (by simp) (⟨2, ![N, n3]⟩ : Shape) C rfl rfl (n1 + n2) rfl
        (ix2 r ⟨q.val - n1 - n2, by omega⟩) (fun b hb => ?_) ?_
      · match b with
        | ⟨0, _⟩ => rfl
        | ⟨1, _⟩ => exact absurd rfl hb
      · show n1 + n2 + (q.val - n1 - n2) = q.val
        omega

/-! Three stores into one buffer, the last first: an index under the last store reads its value; an index under the
    middle store and off the last reads the middle store's value; an index under the first store and off the two later
    ones reads the first store's value. -/
section ThreeStores

variable {Val : EltTy → Type} [∀ e, Nonempty (Val e)] {S : Shape} {e : EltTy}
  (r3 r2 r1 : Rect S) (w3 : r3.shape.Idx → Val e) (w2 : r2.shape.Idx → Val e) (w1 : r1.shape.Idx → Val e)

theorem canon3_last (x : r3.shape.Idx) :
    View.canon ([⟨r3, w3⟩, ⟨r2, w2⟩, ⟨r1, w1⟩] : List (View.Piece Val S e)) (r3.emb x) = w3 x :=
  View.canon_cons_emb r3 w3 _ x

theorem canon3_middle (x : r2.shape.Idx) (h3 : r2.emb x ∉ r3.set) :
    View.canon ([⟨r3, w3⟩, ⟨r2, w2⟩, ⟨r1, w1⟩] : List (View.Piece Val S e)) (r2.emb x) = w2 x :=
  (View.canon_cons_of_not_mem (⟨r3, w3⟩ : View.Piece Val S e) _ h3).trans (View.canon_cons_emb r2 w2 _ x)

theorem canon3_first (x : r1.shape.Idx) (h3 : r1.emb x ∉ r3.set) (h2 : r1.emb x ∉ r2.set) :
    View.canon ([⟨r3, w3⟩, ⟨r2, w2⟩, ⟨r1, w1⟩] : List (View.Piece Val S e)) (r1.emb x) = w1 x :=
  (View.canon_cons_of_not_mem (⟨r3, w3⟩ : View.Piece Val S e) _ h3).trans
    ((View.canon_cons_of_not_mem (⟨r2, w2⟩ : View.Piece Val S e) _ h2).trans (View.canon_cons_emb r1 w1 _ x))

end ThreeStores

end Concat

namespace Relu

variable {N n : ℕ}

theorem biasedRelu_ix2 (X : (⟨2, ![N, n]⟩ : Shape).Idx → EReal) (b : (⟨2, ![1, n]⟩ : Shape).Idx → EReal) (r : Fin N) (q : Fin n) :
    biasedRelu X b (ix2 r q) = max (X (ix2 r q) + b (ix2 (0 : Fin 1) q)) (Ideal.ofBits .f32 0x00000000#32) := rfl

/-- The host's spelling: the bias row laid over the rows, added, and the maximum taken against a scalar zero laid over
    the whole array. -/
theorem host_eq_biasedRelu (X : FVec Ideal ⟨2, ![N, n]⟩ .f32) (b : FVec Ideal ⟨2, ![1, n]⟩ .f32)
    (hB : (⟨2, ![1, n]⟩ : Shape).BroadcastsInDim ⟨2, ![N, n]⟩ ![0, 1])
    (dims : Fin (⟨0, ![]⟩ : Shape).rank → Fin (⟨2, ![N, n]⟩ : Shape).rank)
    (h0 : (⟨0, ![]⟩ : Shape).BroadcastsInDim ⟨2, ![N, n]⟩ dims) :
    maximumf (addf X (broadcastInDim ⟨2, ![N, n]⟩ ![0, 1] hB b))
        (broadcastInDim ⟨2, ![N, n]⟩ dims h0 (constant (F := Ideal) ⟨0, ![]⟩ .f32 0x00000000#32))
      = biasedRelu X b := by
  funext j
  obtain ⟨r, q, rfl⟩ : ∃ (r : Fin N) (q : Fin n), j = ix2 r q := ⟨j 0, j 1, eq_ix2 j⟩
  rw [maximumf_apply, Cert.Dense.host_biased, biasedRelu_ix2,
    broadcastInDim_apply dims h0 _ (ix2 r q) ix0 (fun a => a.elim0)]
  rfl

end Relu

end Cert

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.LibJoinSplit.lean ====
/-
  The two dense steps of the message-passing layer on the extended reals, as functions of an index.

  Messages. For row blocks A, B : [a, d] (the source and destination node features of a block of edges), C : [a, f]
  (their edge features) and weights W1, W2 : [d, n], W3 : [f, n], the message of edge r in channel q is
      msg(r, q) = lk (Σ_k A(r,k) W1(k,q) + Σ_k B(r,k) W2(k,q) + Σ_k C(r,k) W3(k,q)),
  lk x = x if x ≥ 0 and 0.01 * x otherwise (the two constants are the words both programs print).
  Update. For H : [a, d], G : [a, f] and U1 : [d, n], U2 : [f, n],
      upd(r, q) = lk (Σ_k H(r,k) U1(k,q) + Σ_k G(r,k) U2(k,q)).

  One program forms these sums of partial products against row slices of one tall weight matrix; the other joins the
  feature arrays side by side and takes ONE product with the tall matrix. The two agree because a finite sum over
  n1 + n2 + n3 indices is the sum of the three sums over its consecutive ranges — a regrouping of additions, which holds
  for extended reals with no finiteness assumption. Each formula also depends on the feature arrays through their row r
  only, so it commutes with cutting a block of consecutive rows out of a taller array.
-/
import Idealize.ShloMosaic.Lib.Pipeline.Value
import Idealize.ShloMosaic.Lib.ValueIdx
import Idealize.ShloMosaic.PureOps.Ideal.Laws
import proofs.«106164_j70626442215972_1_alg».proof.Proof.LibSage
import proofs.«106164_j70626442215972_1_alg».proof.Proof.LibConcatSpec
import proofs.«106164_j70626442215972_1_alg».proof.Proof.LibConcatCols

noncomputable section

open scoped BigOperators

namespace Cert.Mpnn

open Idealize.ShloMosaic Idealize.ShloMosaic.ValueIdx

variable {a d f n N w n1 n2 n3 : ℕ}

/-- The leaky rectifier of both programs: x at or above the zero word's value, the word 0x3C23D70A times x below. -/
def lk (x : EReal) : EReal :=
  Cert.Sage.leaky (Ideal.ofBits .f32 0x00000000#32) (Ideal.ofBits .f32 0x3C23D70A#32) x

/-- The messages of a block of edges. -/
def msg (A B : (⟨2, ![a, d]⟩ : Shape).Idx → EReal) (C : (⟨2, ![a, f]⟩ : Shape).Idx → EReal)
    (W1 W2 : (⟨2, ![d, n]⟩ : Shape).Idx → EReal) (W3 : (⟨2, ![f, n]⟩ : Shape).Idx → EReal) :
    (⟨2, ![a, n]⟩ : Shape).Idx → EReal :=
  fun i => lk (Cert.Dense.prod A W1 i + Cert.Dense.prod B W2 i + Cert.Dense.prod C W3 i)

/-- The update of a block of nodes. -/
def upd (H : (⟨2, ![a, d]⟩ : Shape).Idx → EReal) (G : (⟨2, ![a, f]⟩ : Shape).Idx → EReal)
    (U1 : (⟨2, ![d, n]⟩ : Shape).Idx → EReal) (U2 : (⟨2, ![f, n]⟩ : Shape).Idx → EReal) :
    (⟨2, ![a, n]⟩ : Shape).Idx → EReal :=
  fun i => lk (Cert.Dense.prod H U1 i + Cert.Dense.prod G U2 i)

/-! ## Blocks of rows -/

/-- The messages of a block of rows are the messages of the whole arrays at the moved row. -/
theorem msg_rows (off : ℕ) (hoff : off + a ≤ N) (A B : (⟨2, ![N, d]⟩ : Shape).Idx → EReal)
    (C : (⟨2, ![N, f]⟩ : Shape).Idx → EReal) (W1 W2 : (⟨2, ![d, n]⟩ : Shape).Idx → EReal)
    (W3 : (⟨2, ![f, n]⟩ : Shape).Idx → EReal) (p : Fin a) (q : Fin n) :
    msg (Cert.Sage.rows off hoff A) (Cert.Sage.rows off hoff B) (Cert.Sage.rows off hoff C) W1 W2 W3 (ix2 p q)
      = msg A B C W1 W2 W3 (ix2 (⟨off + p.val, by omega⟩ : Fin N) q) := rfl

/-- The update of a block of rows is the update of the whole arrays at the moved row. -/
theorem upd_rows (off : ℕ) (hoff : off + a ≤ N) (H : (⟨2, ![N, d]⟩ : Shape).Idx → EReal)
    (G : (⟨2, ![N, f]⟩ : Shape).Idx → EReal) (U1 : (⟨2, ![d, n]⟩ : Shape).Idx → EReal)
    (U2 : (⟨2, ![f, n]⟩ : Shape).Idx → EReal) (p : Fin a) (q : Fin n) :
    upd (Cert.Sage.rows off hoff H) (Cert.Sage.rows off hoff G) U1 U2 (ix2 p q)
      = upd H G U1 U2 (ix2 (⟨off + p.val, by omega⟩ : Fin N) q) := rfl

/-! ## A sum over consecutive ranges -/

/-- A sum over n1 + n2 indices is the sum over the first n1 plus the sum over the next n2. -/
theorem sum_split2 (hw : n1 + n2 = w) (g : Fin w → EReal) :
    ∑ k : Fin w, g k = ∑ k : Fin n1, g ⟨k.val, by omega⟩ + ∑ k : Fin n2, g ⟨n1 + k.val, by omega⟩ := by
  subst hw
  rw [Fin.sum_univ_add]
  rfl

/-- A sum over n1 + n2 + n3 indices is the sum of the sums over its three consecutive ranges. -/
theorem sum_split3 (hw : n1 + n2 + n3 = w) (g : Fin w → EReal) :
    ∑ k : Fin w, g k = ∑ k : Fin n1, g ⟨k.val, by omega⟩ + ∑ k : Fin n2, g ⟨n1 + k.val, by omega⟩
      + ∑ k : Fin n3, g ⟨n1 + n2 + k.val, by omega⟩ := by
  subst hw
  rw [Fin.sum_univ_add, Fin.sum_univ_add]
  rfl

/-! ## One product with the joined features against the partial products -/

/-- The product of three arrays joined side by side with a tall matrix is the sum of the three products with the
    matrix's consecutive row slices. -/
theorem prod_join3 (hw : n1 + n2 + n3 = w) (A : (⟨2, ![a, n1]⟩ : Shape).Idx → EReal)
    (B : (⟨2, ![a, n2]⟩ : Shape).Idx → EReal) (C : (⟨2, ![a, n3]⟩ : Shape).Idx → EReal)
    (W : (⟨2, ![w, n]⟩ : Shape).Idx → EReal) (r : Fin a) (q : Fin n) :
    Cert.Dense.prod (Cert.Concat.spec hw A B C) W (ix2 r q)
      = Cert.Dense.prod A (Cert.Sage.rows 0 (by omega) W) (ix2 r q)
        + Cert.Dense.prod B (Cert.Sage.rows n1 (by omega) W) (ix2 r q)
        + Cert.Dense.prod C (Cert.Sage.rows (n1 + n2) (by omega) W) (ix2 r q) := by
  rw [Cert.Dense.prod_ix2, Cert.Dense.prod_ix2, Cert.Dense.prod_ix2, Cert.Dense.prod_ix2, sum_split3 hw]
  congr 1
  · congr 1
    · refine Finset.sum_congr rfl fun k _ => ?_
      rw [Cert.Concat.spec_left hw A B C r ⟨k.val, by omega⟩ k rfl, Cert.Sage.rows_ix2]
      exact congrArg (fun z => A (ix2 r k) * W (ix2 z q)) (Fin.ext (Nat.zero_add k.val).symm)
    · refine Finset.sum_congr rfl fun k _ => ?_
      rw [Cert.Concat.spec_mid hw A B C r ⟨n1 + k.val, by omega⟩ k rfl, Cert.Sage.rows_ix2]
  · refine Finset.sum_congr rfl fun k _ => ?_
    rw [Cert.Concat.spec_right hw A B C r ⟨n1 + n2 + k.val, by omega⟩ k rfl, Cert.Sage.rows_ix2]

/-- Two arrays joined side by side (the host's concatenate along axis 1) times a tall matrix: the two products with the
    matrix's consecutive row slices. -/
theorem prod_join2 (hw : n1 + n2 = w) (A : (⟨2, ![a, n1]⟩ : Shape).Idx → EReal) (B : (⟨2, ![a, n2]⟩ : Shape).Idx → EReal)
    (h : Shape.Concatenates [(⟨2, ![a, n1]⟩ : Shape), ⟨2, ![a, n2]⟩] ⟨2, ![a, w]⟩ 1)
    (W : (⟨2, ![w, n]⟩ : Shape).Idx → EReal) (r : Fin a) (q : Fin n) :
    Cert.Dense.prod (concatenate ⟨2, ![a, w]⟩ 1 [⟨⟨2, ![a, n1]⟩, A⟩, ⟨⟨2, ![a, n2]⟩, B⟩] h) W (ix2 r q)
      = Cert.Dense.prod A (Cert.Sage.rows 0 (by omega) W) (ix2 r q)
        + Cert.Dense.prod B (Cert.Sage.rows n1 (by omega) W) (ix2 r q) := by
  rw [Cert.Dense.prod_ix2, Cert.Dense.prod_ix2, Cert.Dense.prod_ix2, sum_split2 hw]
  congr 1
  · refine Finset.sum_congr rfl fun k _ => ?_
    rw [Cert.LibConcatCols.cols_left A B h r ⟨k.val, by omega⟩ k rfl, Cert.Sage.rows_ix2]
    exact congrArg (fun z => A (ix2 r k) * W (ix2 z q)) (Fin.ext (Nat.zero_add k.val).symm)
  · refine Finset.sum_congr rfl fun k _ => ?_
    rw [Cert.LibConcatCols.cols_right A B h r ⟨n1 + k.val, by omega⟩ k (Nat.add_comm _ _), Cert.Sage.rows_ix2]

/-! ## The two programs' spellings of the rectifier -/

/-- A scalar word laid over a whole array by the host reads, everywhere, the word's value. -/
theorem bcast_scalar_apply {s : Shape} (dims : Fin (⟨0, ![]⟩ : Shape).rank → Fin s.rank)
    (h0 : (⟨0, ![]⟩ : Shape).BroadcastsInDim s dims) (b : BitVec 32) (i : s.Idx) :
    broadcastInDim s dims h0 (constant (F := Ideal) ⟨0, ![]⟩ .f32 b) i = Ideal.ofBits .f32 b :=
  broadcastInDim_apply dims h0 _ i ix0 (fun a => a.elim0)

/-- The host's leaky rectifier (compare with a laid-out zero, multiply by a laid-out slope, select) at an entry. -/
theorem host_leaky_apply {s : Shape} (dims : Fin (⟨0, ![]⟩ : Shape).rank → Fin s.rank)
    (h0 : (⟨0, ![]⟩ : Shape).BroadcastsInDim s dims) (x : FVec Ideal s .f32) (i : s.Idx) :
    select (cmpf .oge x (broadcastInDim s dims h0 (constant (F := Ideal) ⟨0, ![]⟩ .f32 0x00000000#32))) x
      (mulf (broadcastInDim s dims h0 (constant (F := Ideal) ⟨0, ![]⟩ .f32 0x3C23D70A#32)) x) i = lk (x i) := by
  rw [select_apply, cmpf_apply, mulf_apply, bcast_scalar_apply, bcast_scalar_apply]
  rfl

/-- The tile's leaky rectifier (scalar constants spread by vector.broadcast) at an entry. -/
theorem tile_leaky_apply {s : Shape} (x : FVec Ideal s .f32) (i : s.Idx) :
    select (cmpf .oge x (broadcast s (Scalar.ofBits (F := Ideal) .f32 0x00000000#32))) x
      (mulf (broadcast s (Scalar.ofBits (F := Ideal) .f32 0x3C23D70A#32)) x) i = lk (x i) := rfl

/-! ## The tile's spelling of the two steps -/

section Tile

variable (D1 : DotDims ⟨2, ![a, d]⟩ ⟨2, ![d, n]⟩ ⟨2, ![a, n]⟩)
  (h1lc : D1.lhsContracting = [1]) (h1rc : D1.rhsContracting = [0]) (h1ln : D1.lhsNonContracting = [0])
  (h1rn : D1.rhsNonContracting = [1]) (h1lb : D1.lhsBatch = []) (h1rb : D1.rhsBatch = [])
  (D3 : DotDims ⟨2, ![a, f]⟩ ⟨2, ![f, n]⟩ ⟨2, ![a, n]⟩)
  (h3lc : D3.lhsContracting = [1]) (h3rc : D3.rhsContracting = [0]) (h3ln : D3.lhsNonContracting = [0])
  (h3rn : D3.rhsNonContracting = [1]) (h3lb : D3.lhsBatch = []) (h3rb : D3.rhsBatch = [])

include h1lc h1rc h1ln h1rn h1lb h1rb h3lc h3rc h3ln h3rn h3lb h3rb in
/-- The message tile: three products into zero accumulators added, rectified, and narrowed (a change of format). -/
theorem tile_msg (x0 x5 : FVec Ideal ⟨2, ![a, d]⟩ .bf16) (x2 x7 : FVec Ideal ⟨2, ![d, n]⟩ .bf16)
    (x11 : FVec Ideal ⟨2, ![a, f]⟩ .bf16) (x13 : FVec Ideal ⟨2, ![f, n]⟩ .bf16)
    (c1 : (⟨2, ![a, d]⟩ : Shape).ShapeCasts ⟨2, ![a, d]⟩) (c2 : (⟨2, ![d, n]⟩ : Shape).ShapeCasts ⟨2, ![d, n]⟩)
    (c3 : (⟨2, ![a, f]⟩ : Shape).ShapeCasts ⟨2, ![a, f]⟩) (c4 : (⟨2, ![f, n]⟩ : Shape).ShapeCasts ⟨2, ![f, n]⟩)
    (hb : FTy.bf16.bits < FTy.f32.bits) :
    (truncf .bf16
      (select
        (cmpf .oge
          (addf (addf (matmul D1 none (shapeCast ⟨2, ![a, d]⟩ x0 c1) (shapeCast ⟨2, ![d, n]⟩ x2 c2) (constant (F := Ideal) ⟨2, ![a, n]⟩ .f32 0x00000000#32))
              (matmul D1 none (shapeCast ⟨2, ![a, d]⟩ x5 c1) (shapeCast ⟨2, ![d, n]⟩ x7 c2) (constant (F := Ideal) ⟨2, ![a, n]⟩ .f32 0x00000000#32)))
            (matmul D3 none (shapeCast ⟨2, ![a, f]⟩ x11 c3) (shapeCast ⟨2, ![f, n]⟩ x13 c4) (constant (F := Ideal) ⟨2, ![a, n]⟩ .f32 0x00000000#32)))
          (broadcast ⟨2, ![a, n]⟩ (Scalar.ofBits (F := Ideal) .f32 0x00000000#32)))
        (addf (addf (matmul D1 none (shapeCast ⟨2, ![a, d]⟩ x0 c1) (shapeCast ⟨2, ![d, n]⟩ x2 c2) (constant (F := Ideal) ⟨2, ![a, n]⟩ .f32 0x00000000#32))
            (matmul D1 none (shapeCast ⟨2, ![a, d]⟩ x5 c1) (shapeCast ⟨2, ![d, n]⟩ x7 c2) (constant (F := Ideal) ⟨2, ![a, n]⟩ .f32 0x00000000#32)))
          (matmul D3 none (shapeCast ⟨2, ![a, f]⟩ x11 c3) (shapeCast ⟨2, ![f, n]⟩ x13 c4) (constant (F := Ideal) ⟨2, ![a, n]⟩ .f32 0x00000000#32)))
        (mulf (broadcast ⟨2, ![a, n]⟩ (Scalar.ofBits (F := Ideal) .f32 0x3C23D70A#32))
          (addf (addf (matmul D1 none (shapeCast ⟨2, ![a, d]⟩ x0 c1) (shapeCast ⟨2, ![d, n]⟩ x2 c2) (constant (F := Ideal) ⟨2, ![a, n]⟩ .f32 0x00000000#32))
              (matmul D1 none (shapeCast ⟨2, ![a, d]⟩ x5 c1) (shapeCast ⟨2, ![d, n]⟩ x7 c2) (constant (F := Ideal) ⟨2, ![a, n]⟩ .f32 0x00000000#32)))
            (matmul D3 none (shapeCast ⟨2, ![a, f]⟩ x11 c3) (shapeCast ⟨2, ![f, n]⟩ x13 c4) (constant (F := Ideal) ⟨2, ![a, n]⟩ .f32 0x00000000#32)))))
      hb : FVec Ideal ⟨2, ![a, n]⟩ .bf16)
      = msg x0 x5 x11 x2 x7 x13 := by
  funext j
  obtain ⟨r, q, rfl⟩ : ∃ (r : Fin a) (q : Fin n), j = ix2 r q := ⟨j 0, j 1, eq_ix2 j⟩
  rw [truncf_apply, tile_leaky_apply, addf_apply, addf_apply, shapeCast_self, shapeCast_self, shapeCast_self,
    shapeCast_self, shapeCast_self, shapeCast_self]
  exact congrArg lk (congrArg₂ (· + ·)
    (congrArg₂ (· + ·) (Cert.LibMatmulPlain.matmul_zero_apply D1 h1lc h1rc h1ln h1rn h1lb h1rb none x0 x2 r q)
      (Cert.LibMatmulPlain.matmul_zero_apply D1 h1lc h1rc h1ln h1rn h1lb h1rb none x5 x7 r q))
    (Cert.LibMatmulPlain.matmul_zero_apply D3 h3lc h3rc h3ln h3rn h3lb h3rb none x11 x13 r q))

end Tile

section TileUpd

variable (D1 : DotDims ⟨2, ![a, d]⟩ ⟨2, ![d, n]⟩ ⟨2, ![a, n]⟩)
  (h1lc : D1.lhsContracting = [1]) (h1rc : D1.rhsContracting = [0]) (h1ln : D1.lhsNonContracting = [0])
  (h1rn : D1.rhsNonContracting = [1]) (h1lb : D1.lhsBatch = []) (h1rb : D1.rhsBatch = [])
  (D2 : DotDims ⟨2, ![a, f]⟩ ⟨2, ![f, n]⟩ ⟨2, ![a, n]⟩)
  (h2lc : D2.lhsContracting = [1]) (h2rc : D2.rhsContracting = [0]) (h2ln : D2.lhsNonContracting = [0])
  (h2rn : D2.rhsNonContracting = [1]) (h2lb : D2.lhsBatch = []) (h2rb : D2.rhsBatch = [])

include h1lc h1rc h1ln h1rn h1lb h1rb h2lc h2rc h2ln h2rn h2lb h2rb in
/-- The update tile: two products into zero accumulators added and rectified. -/
theorem tile_upd (x0 : FVec Ideal ⟨2, ![a, d]⟩ .bf16) (x2 : FVec Ideal ⟨2, ![d, n]⟩ .bf16)
    (x5 : FVec Ideal ⟨2, ![a, f]⟩ .bf16) (x7 : FVec Ideal ⟨2, ![f, n]⟩ .bf16)
    (c1 : (⟨2, ![a, d]⟩ : Shape).ShapeCasts ⟨2, ![a, d]⟩) (c2 : (⟨2, ![d, n]⟩ : Shape).ShapeCasts ⟨2, ![d, n]⟩)
    (c3 : (⟨2, ![a, f]⟩ : Shape).ShapeCasts ⟨2, ![a, f]⟩) (c4 : (⟨2, ![f, n]⟩ : Shape).ShapeCasts ⟨2, ![f, n]⟩) :
    select
        (cmpf .oge
          (addf (matmul D1 none (shapeCast ⟨2, ![a, d]⟩ x0 c1) (shapeCast ⟨2, ![d, n]⟩ x2 c2) (constant (F := Ideal) ⟨2, ![a, n]⟩ .f32 0x00000000#32))
            (matmul D2 none (shapeCast ⟨2, ![a, f]⟩ x5 c3) (shapeCast ⟨2, ![f, n]⟩ x7 c4) (constant (F := Ideal) ⟨2, ![a, n]⟩ .f32 0x00000000#32)))
          (broadcast ⟨2, ![a, n]⟩ (Scalar.ofBits (F := Ideal) .f32 0x00000000#32)))
        (addf (matmul D1 none (shapeCast ⟨2, ![a, d]⟩ x0 c1) (shapeCast ⟨2, ![d, n]⟩ x2 c2) (constant (F := Ideal) ⟨2, ![a, n]⟩ .f32 0x00000000#32))
          (matmul D2 none (shapeCast ⟨2, ![a, f]⟩ x5 c3) (shapeCast ⟨2, ![f, n]⟩ x7 c4) (constant (F := Ideal) ⟨2, ![a, n]⟩ .f32 0x00000000#32)))
        (mulf (broadcast ⟨2, ![a, n]⟩ (Scalar.ofBits (F := Ideal) .f32 0x3C23D70A#32))
          (addf (matmul D1 none (shapeCast ⟨2, ![a, d]⟩ x0 c1) (shapeCast ⟨2, ![d, n]⟩ x2 c2) (constant (F := Ideal) ⟨2, ![a, n]⟩ .f32 0x00000000#32))
            (matmul D2 none (shapeCast ⟨2, ![a, f]⟩ x5 c3) (shapeCast ⟨2, ![f, n]⟩ x7 c4) (constant (F := Ideal) ⟨2, ![a, n]⟩ .f32 0x00000000#32))))
      = upd x0 x5 x2 x7 := by
  funext j
  obtain ⟨r, q, rfl⟩ : ∃ (r : Fin a) (q : Fin n), j = ix2 r q := ⟨j 0, j 1, eq_ix2 j⟩
  rw [tile_leaky_apply, addf_apply, shapeCast_self, shapeCast_self, shapeCast_self, shapeCast_self]
  exact congrArg lk (congrArg₂ (· + ·)
    (Cert.LibMatmulPlain.matmul_zero_apply D1 h1lc h1rc h1ln h1rn h1lb h1rb none x0 x2 r q)
    (Cert.LibMatmulPlain.matmul_zero_apply D2 h2lc h2rc h2ln h2rn h2lb h2rb none x5 x7 r q))

end TileUpd

/-! ## The host's spelling of the two steps -/

section Host

variable (D : DotDims ⟨2, ![a, w]⟩ ⟨2, ![w, n]⟩ ⟨2, ![a, n]⟩)
  (hlc : D.lhsContracting = [1]) (hrc : D.rhsContracting = [0]) (hln : D.lhsNonContracting = [0])
  (hrn : D.rhsNonContracting = [1]) (hlb : D.lhsBatch = []) (hrb : D.rhsBatch = [])

include hlc hrc hln hrn hlb hrb in
/-- The host's messages — the rectified product of the three joined arrays with the tall matrix — are the messages
    against the matrix's three consecutive row slices. -/
theorem host_msg (hw : n1 + n2 + n3 = w) (A : FVec Ideal ⟨2, ![a, n1]⟩ .f32) (B : FVec Ideal ⟨2, ![a, n2]⟩ .f32)
    (C : FVec Ideal ⟨2, ![a, n3]⟩ .f32) (W : FVec Ideal ⟨2, ![w, n]⟩ .f32)
    (hc : Shape.Concatenates [(⟨2, ![a, n1]⟩ : Shape), ⟨2, ![a, n2]⟩, ⟨2, ![a, n3]⟩] (⟨2, ![a, w]⟩ : Shape) 1)
    (dims : Fin (⟨0, ![]⟩ : Shape).rank → Fin (⟨2, ![a, n]⟩ : Shape).rank)
    (h0 : (⟨0, ![]⟩ : Shape).BroadcastsInDim ⟨2, ![a, n]⟩ dims) :
    select (cmpf .oge (Host.dotGeneral (F := Ideal) D none
          (concatenate (⟨2, ![a, w]⟩ : Shape) 1 [⟨(⟨2, ![a, n1]⟩ : Shape), A⟩, ⟨(⟨2, ![a, n2]⟩ : Shape), B⟩, ⟨(⟨2, ![a, n3]⟩ : Shape), C⟩] hc) W)
        (broadcastInDim ⟨2, ![a, n]⟩ dims h0 (constant (F := Ideal) ⟨0, ![]⟩ .f32 0x00000000#32)))
      (Host.dotGeneral (F := Ideal) D none
          (concatenate (⟨2, ![a, w]⟩ : Shape) 1 [⟨(⟨2, ![a, n1]⟩ : Shape), A⟩, ⟨(⟨2, ![a, n2]⟩ : Shape), B⟩, ⟨(⟨2, ![a, n3]⟩ : Shape), C⟩] hc) W)
      (mulf (broadcastInDim ⟨2, ![a, n]⟩ dims h0 (constant (F := Ideal) ⟨0, ![]⟩ .f32 0x3C23D70A#32))
        (Host.dotGeneral (F := Ideal) D none
          (concatenate (⟨2, ![a, w]⟩ : Shape) 1 [⟨(⟨2, ![a, n1]⟩ : Shape), A⟩, ⟨(⟨2, ![a, n2]⟩ : Shape), B⟩, ⟨(⟨2, ![a, n3]⟩ : Shape), C⟩] hc) W))
      = fun i => lk (Cert.Dense.prod A (Cert.Sage.rows 0 (by omega) W) i
          + Cert.Dense.prod B (Cert.Sage.rows n1 (by omega) W) i
          + Cert.Dense.prod C (Cert.Sage.rows (n1 + n2) (by omega) W) i) := by
  funext j
  obtain ⟨r, q, rfl⟩ : ∃ (r : Fin a) (q : Fin n), j = ix2 r q := ⟨j 0, j 1, eq_ix2 j⟩
  rw [host_leaky_apply, Cert.Dense.dotGeneral_eq_prod D hlc hrc hln hrn hlb hrb, Cert.Concat.concatenate_eq_spec hw,
    prod_join3 hw]

include hlc hrc hln hrn hlb hrb in
/-- The host's update — the rectified product of the two joined arrays with the tall matrix — is the update against the
    matrix's two consecutive row slices. -/
theorem host_upd (hw : n1 + n2 = w) (H : FVec Ideal ⟨2, ![a, n1]⟩ .f32) (G : FVec Ideal ⟨2, ![a, n2]⟩ .f32)
    (W : FVec Ideal ⟨2, ![w, n]⟩ .f32)
    (hc : Shape.Concatenates [(⟨2, ![a, n1]⟩ : Shape), ⟨2, ![a, n2]⟩] (⟨2, ![a, w]⟩ : Shape) 1)
    (dims : Fin (⟨0, ![]⟩ : Shape).rank → Fin (⟨2, ![a, n]⟩ : Shape).rank)
    (h0 : (⟨0, ![]⟩ : Shape).BroadcastsInDim ⟨2, ![a, n]⟩ dims) :
    select (cmpf .oge (Host.dotGeneral (F := Ideal) D none
          (concatenate (⟨2, ![a, w]⟩ : Shape) 1 [⟨(⟨2, ![a, n1]⟩ : Shape), H⟩, ⟨(⟨2, ![a, n2]⟩ : Shape), G⟩] hc) W)
        (broadcastInDim ⟨2, ![a, n]⟩ dims h0 (constant (F := Ideal) ⟨0, ![]⟩ .f32 0x00000000#32)))
      (Host.dotGeneral (F := Ideal) D none
          (concatenate (⟨2, ![a, w]⟩ : Shape) 1 [⟨(⟨2, ![a, n1]⟩ : Shape), H⟩, ⟨(⟨2, ![a, n2]⟩ : Shape), G⟩] hc) W)
      (mulf (broadcastInDim ⟨2, ![a, n]⟩ dims h0 (constant (F := Ideal) ⟨0, ![]⟩ .f32 0x3C23D70A#32))
        (Host.dotGeneral (F := Ideal) D none
          (concatenate (⟨2, ![a, w]⟩ : Shape) 1 [⟨(⟨2, ![a, n1]⟩ : Shape), H⟩, ⟨(⟨2, ![a, n2]⟩ : Shape), G⟩] hc) W))
      = upd H G (Cert.Sage.rows 0 (by omega) W) (Cert.Sage.rows n1 (by omega) W) := by
  funext j
  obtain ⟨r, q, rfl⟩ : ∃ (r : Fin a) (q : Fin n), j = ix2 r q := ⟨j 0, j 1, eq_ix2 j⟩
  rw [host_leaky_apply, Cert.Dense.dotGeneral_eq_prod D hlc hrc hln hrn hlb hrb, prod_join2 hw]
  rfl

end Host

/-! ## A row slice of a matrix, as the host spells it -/

/-- The host's slice of `a` consecutive rows of a taller matrix starting at row `off` (all columns) is that block of rows. -/
theorem slice_rows {k : ℕ} (off : ℕ) (hoff : off + a ≤ N) (W : (⟨2, ![N, k]⟩ : Shape).Idx → EReal)
    (h : (⟨2, ![N, k]⟩ : Shape).Slices ![off, 0] ⟨2, ![a, k]⟩) :
    extractStridedSlice ⟨2, ![a, k]⟩ ![off, 0] W h = Cert.Sage.rows off hoff W := by
  funext j
  obtain ⟨p, c, rfl⟩ : ∃ (p : Fin a) (c : Fin k), j = ix2 p c := ⟨j 0, j 1, eq_ix2 j⟩
  rw [Cert.Sage.rows_ix2]
  refine extractStridedSlice_apply ![off, 0] W h (ix2 p c) _ fun ax => ?_
  match ax with
  | ⟨0, _⟩ => rfl
  | ⟨1, _⟩ => exact (Nat.zero_add _).symm

end Cert.Mpnn

end
-- ==== Proof.Blocks0.lean ====
/-
  The first kernel region's output array, whole.

  The region walks the 1,600,000 edges in 200 blocks of 8000 rows. At block t it reads rows 8000 t … 8000 t + 7999 of the
  gathered source features, of the gathered destination features and of the edge features, the three weight slices
  whole, and writes the block's messages to the same rows of its output. The messages of an edge depend on that edge's
  rows only, so block t of the output is block t of ONE array: the messages of all edges, as a function of the six arrays
  the region finds. The 200 blocks cover every row (row i lies in block i / 8000), so after the region the output array
  is that function.
-/
import proofs.«106164_j70626442215972_1_alg».proof.Proof.Gen.KernelIdeal.Frame
import proofs.«106164_j70626442215972_1_alg».proof.Proof.LibJoinSplit
import Idealize.ShloMosaic.Lib.Pipeline.Value
import Idealize.ShloMosaic.Lib.ValueIdx

set_option maxRecDepth 16384

noncomputable section

namespace Cert.KernelIdeal.Msgs

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the messages of the loaded blocks. -/
theorem pay_eq (x0 x5 : FVec Ideal S8000x64 .bf16) (x2 x7 : FVec Ideal S64x128 .bf16)
    (x11 : FVec Ideal S8000x32 .bf16) (x13 : FVec Ideal S32x128 .bf16) :
    k0_pay1 (F := Ideal) x0 x2 x5 x7 x11 x13 = Cert.Mpnn.msg x0 x5 x11 x2 x7 x13 :=
  Cert.Mpnn.tile_msg dot_S8000x64_S64x128_S8000x128_1_0_0_1_n_n rfl rfl rfl rfl rfl rfl
    dot_S8000x32_S32x128_S8000x128_1_0_0_1_n_n rfl rfl rfl rfl rfl rfl x0 x5 x2 x7 x11 x13 _ _ _ _ _

/-- The printed index maps over the grid: the three row-blocked inputs and the output sit at block t of their rows,
    the three weight slices at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem hoff (t : Fin cfg0.N) : t.val * 8000 + 8000 ≤ 1600000 := by
  have h := t.isLt
  have hN : cfg0.N = 200 := N_0
  omega

/-! ## Each input window's block at point t -/

theorem blk_0 (c : Dev nD) (t : Fin cfg0.N) :
    iblk0 V c 0 t = Cert.Sage.rows (t.val * 8000) (hoff t) (V c main_v8) := by
  funext y
  obtain ⟨e0, e1, -⟩ := idx_facts t
  show V c main_v8 (((cfg0.win 0).blk t).view.emb y) = V c main_v8 (ix2 _ (y 1))
  refine congrArg _ (funext fun ax => Fin.ext ?_)
  match ax with
  | ⟨0, _⟩ => show win0_0.index t (0 : Fin 2) * 8000 + 1 * (y 0).val = t.val * 8000 + (y 0).val; rw [e0]; omega
  | ⟨1, _⟩ => show win0_0.index t (1 : Fin 2) * 64 + 1 * (y 1).val = (y 1).val; rw [e1]; omega

theorem blk_1 (c : Dev nD) (t : Fin cfg0.N) :
    iblk0 V c 1 t = Cert.Sage.rows (t.val * 8000) (hoff t) (V c main_v15) := by
  funext y
  obtain ⟨-, -, e0, e1, -⟩ := idx_facts t
  show V c main_v15 (((cfg0.win 1).blk t).view.emb y) = V c main_v15 (ix2 _ (y 1))
  refine congrArg _ (funext fun ax => Fin.ext ?_)
  match ax with
  | ⟨0, _⟩ => show win0_1.index t (0 : Fin 2) * 8000 + 1 * (y 0).val = t.val * 8000 + (y 0).val; rw [e0]; omega
  | ⟨1, _⟩ => show win0_1.index t (1 : Fin 2) * 64 + 1 * (y 1).val = (y 1).val; rw [e1]; omega

theorem blk_2 (c : Dev nD) (t : Fin cfg0.N) :
    iblk0 V c 2 t = Cert.Sage.rows (t.val * 8000) (hoff t) (V c main_v1) := by
  funext y
  obtain ⟨-, -, -, -, e0, e1, -⟩ := idx_facts t
  show V c main_v1 (((cfg0.win 2).blk t).view.emb y) = V c main_v1 (ix2 _ (y 1))
  refine congrArg _ (funext fun ax => Fin.ext ?_)
  match ax with
  | ⟨0, _⟩ => show win0_2.index t (0 : Fin 2) * 8000 + 1 * (y 0).val = t.val * 8000 + (y 0).val; rw [e0]; omega
  | ⟨1, _⟩ => show win0_2.index t (1 : Fin 2) * 32 + 1 * (y 1).val = (y 1).val; rw [e1]; omega

theorem blk_3 (c : Dev nD) (t : Fin cfg0.N) : iblk0 V c 3 t = V c main_v17 := by
  funext y
  obtain ⟨-, -, -, -, -, -, e0, e1, -⟩ := idx_facts t
  show V c main_v17 (((cfg0.win 3).blk t).view.emb y) = V c main_v17 y
  refine congrArg _ (funext fun ax => Fin.ext ?_)
  match ax with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

theorem blk_4 (c : Dev nD) (t : Fin cfg0.N) : iblk0 V c 4 t = V c main_v19 := by
  funext y
  obtain ⟨-, -, -, -, -, -, -, -, e0, e1, -⟩ := idx_facts t
  show V c main_v19 (((cfg0.win 4).blk t).view.emb y) = V c main_v19 y
  refine congrArg _ (funext fun ax => Fin.ext ?_)
  match ax with
  | ⟨0, _⟩ => show win0_4.index t (0 : Fin 2) * 64 + 1 * (y 0).val = (y 0).val; rw [e0]; omega
  | ⟨1, _⟩ => show win0_4.index t (1 : Fin 2) * 128 + 1 * (y 1).val = (y 1).val; rw [e1]; omega

theorem blk_5 (c : Dev nD) (t : Fin cfg0.N) : iblk0 V c 5 t = V c main_v21 := by
  funext y
  obtain ⟨-, -, -, -, -, -, -, -, -, -, e0, e1, -⟩ := idx_facts t
  show V c main_v21 (((cfg0.win 5).blk t).view.emb y) = V c main_v21 y
  refine congrArg _ (funext fun ax => Fin.ext ?_)
  match ax with
  | ⟨0, _⟩ => show win0_5.index t (0 : Fin 2) * 32 + 1 * (y 0).val = (y 0).val; rw [e0]; omega
  | ⟨1, _⟩ => show win0_5.index t (1 : Fin 2) * 128 + 1 * (y 1).val = (y 1).val; rw [e1]; omega

/-- Where entry (p, q) of the output's block t sits in the output array: row 8000 t + p, column q. -/
theorem emb_out (t : Fin cfg0.N) (p : Fin 8000) (q : Fin 128) :
    ((cfg0.win 6).blk t).view.emb (ix2 p q) = ix2 (⟨t.val * 8000 + p.val, by have := hoff t; omega⟩ : Fin 1600000) q := by
  obtain ⟨-, -, -, -, -, -, -, -, -, -, -, -, e0, e1⟩ := idx_facts t
  refine funext fun ax => Fin.ext ?_
  match ax with
  | ⟨0, _⟩ => show win0_6.index t (0 : Fin 2) * 8000 + 1 * p.val = t.val * 8000 + p.val; rw [e0]; omega
  | ⟨1, _⟩ => show win0_6.index t (1 : Fin 2) * 128 + 1 * q.val = q.val; rw [e1]; omega

/-- The messages of all edges, of the six arrays the region finds. -/
abbrev G (c : Dev nD) : S1600000x128.Idx → EReal :=
  Cert.Mpnn.msg (V c main_v8) (V c main_v15) (V c main_v1) (V c main_v17) (V c main_v19) (V c main_v21)

/-- What point t writes back is block t of the messages of all edges. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S8000x64) hz, View.ld_unit_zero (S := S64x128) hz,
    View.ld_unit_zero (S := S8000x32) hz, View.ld_unit_zero (S := S32x128) hz]
  rw [pay_eq, blk_0, blk_1, blk_2, blk_3, blk_4, blk_5]
  funext j
  obtain ⟨p, q, rfl⟩ : ∃ (p : Fin 8000) (q : Fin 128), j = ix2 p q := ⟨j 0, j 1, eq_ix2 j⟩
  show Cert.Mpnn.msg (Cert.Sage.rows (t.val * 8000) (hoff t) (V c main_v8)) (Cert.Sage.rows (t.val * 8000) (hoff t) (V c main_v15))
      (Cert.Sage.rows (t.val * 8000) (hoff t) (V c main_v1)) (V c main_v17) (V c main_v19) (V c main_v21) (ix2 p q)
    = G V c (((cfg0.win 6).blk t).view.emb (ix2 p q))
  rw [emb_out, Cert.Mpnn.msg_rows]

/-- An index of the output array is in point t's block iff each coordinate is in the block's range on its axis. -/
theorem mem_blk (t : Fin cfg0.N) (i : S1600000x128.Idx) :
    i ∈ ((cfg0.win 6).blk t).view.set ↔ ∀ ax : Fin 2, win0_6.index t ax * S8000x128.size ax ≤ (i ax).val
      ∧ (i ax).val < win0_6.index t ax * S8000x128.size ax + S8000x128.size ax := by
  show i ∈ ((View.whole main_v22).slice (win0_6.rect t)).set ↔ _
  rw [View.set_slice_whole, Rect.mem_set_unit]
  exact Iff.rfl

/-- Every entry of the output array is in the block of the point that holds its row. -/
theorem cover (i : S1600000x128.Idx) :
    ∃ t : Fin cfg0.N, (cfg0.win 6).flush t = true ∧ i ∈ ((cfg0.win 6).blk t).view.set := by
  have hi0 : (i 0).val < 1600000 := (i 0).isLt
  have hi1 : (i 1).val < 128 := (i 1).isLt
  have hN : cfg0.N = 200 := N_0
  refine ⟨⟨(i 0).val / 8000, by omega⟩, flush0_6 _, ?_⟩
  obtain ⟨-, -, -, -, -, -, -, -, -, -, -, -, e0, e1⟩ := idx_facts ⟨(i 0).val / 8000, by omega⟩
  rw [mem_blk]
  intro ax
  match ax with
  | ⟨0, _⟩ =>
    show win0_6.index _ (0 : Fin 2) * 8000 ≤ (i 0).val ∧ (i 0).val < win0_6.index _ (0 : Fin 2) * 8000 + 8000
    rw [e0]
    show (i 0).val / 8000 * 8000 ≤ (i 0).val ∧ (i 0).val < (i 0).val / 8000 * 8000 + 8000
    omega
  | ⟨1, _⟩ =>
    show win0_6.index _ (1 : Fin 2) * 128 ≤ (i 1).val ∧ (i 1).val < win0_6.index _ (1 : Fin 2) * 128 + 128
    rw [e1]
    omega

/-- After the region its output array holds the messages of all edges. -/
theorem final (c : Dev nD) : (dat0 V c).arrAt 6 cfg0.N = G V c :=
  (dat0 V c).arrAt_eq_of_cover 6 (G V c) (fun t _ => flushed_eq V c t) cover

end Cert.KernelIdeal.Msgs

end
-- ==== Proof.Blocks1.lean ====
/-
  The second kernel region's output array, whole.

  The region walks the 100,000 nodes in 20 blocks of 5000 rows. At block t it reads rows 5000 t … 5000 t + 4999 of the
  node features and of the aggregated messages, the two weight slices whole, and writes the block's updated features to
  the same rows of its output. A node's update depends on that node's rows only, so block t of the output is block t of
  ONE array: the update of all nodes, as a function of the four arrays the region finds. The 20 blocks cover every row
  (row i lies in block i / 5000), so after the region the output array is that function.
-/
import proofs.«106164_j70626442215972_1_alg».proof.Proof.Gen.KernelIdeal.Frame
import proofs.«106164_j70626442215972_1_alg».proof.Proof.LibJoinSplit
import Idealize.ShloMosaic.Lib.Pipeline.Value
import Idealize.ShloMosaic.Lib.ValueIdx

set_option maxRecDepth 16384

noncomputable section

namespace Cert.KernelIdeal.Upds

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the update of the loaded blocks. -/
theorem pay_eq (x0 : FVec Ideal S5000x64 .bf16) (x2 : FVec Ideal S64x128 .bf16)
    (x5 : FVec Ideal S5000x128 .bf16) (x7 : FVec Ideal S128x128 .bf16) :
    k1_pay1 (F := Ideal) x0 x2 x5 x7 = Cert.Mpnn.upd x0 x5 x2 x7 :=
  Cert.Mpnn.tile_upd dot_S5000x64_S64x128_S5000x128_1_0_0_1_n_n rfl rfl rfl rfl rfl rfl
    dot_S5000x128_S128x128_S5000x128_1_0_0_1_n_n rfl rfl rfl rfl rfl rfl x0 x2 x5 x7 _ _ _ _

/-- The printed index maps over the grid: the two row-blocked inputs and the output sit at block t of their rows, the two
    weight slices at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem hoff (t : Fin cfg1.N) : t.val * 5000 + 5000 ≤ 100000 := by
  have h := t.isLt
  have hN : cfg1.N = 20 := N_1
  omega

/-! ## Each input window's block at point t -/

theorem blk_0 (c : Dev nD) (t : Fin cfg1.N) :
    iblk1 V c 0 t = Cert.Sage.rows (t.val * 5000) (hoff t) (V c main_v0) := by
  funext y
  obtain ⟨e0, e1, -⟩ := idx_facts t
  show V c main_v0 (((cfg1.win 0).blk t).view.emb y) = V c main_v0 (ix2 _ (y 1))
  refine congrArg _ (funext fun ax => Fin.ext ?_)
  match ax with
  | ⟨0, _⟩ => show win1_0.index t (0 : Fin 2) * 5000 + 1 * (y 0).val = t.val * 5000 + (y 0).val; rw [e0]; omega
  | ⟨1, _⟩ => show win1_0.index t (1 : Fin 2) * 64 + 1 * (y 1).val = (y 1).val; rw [e1]; omega

theorem blk_1 (c : Dev nD) (t : Fin cfg1.N) :
    iblk1 V c 1 t = Cert.Sage.rows (t.val * 5000) (hoff t) (V c main_v36) := by
  funext y
  obtain ⟨-, -, e0, e1, -⟩ := idx_facts t
  show V c main_v36 (((cfg1.win 1).blk t).view.emb y) = V c main_v36 (ix2 _ (y 1))
  refine congrArg _ (funext fun ax => Fin.ext ?_)
  match ax with
  | ⟨0, _⟩ => show win1_1.index t (0 : Fin 2) * 5000 + 1 * (y 0).val = t.val * 5000 + (y 0).val; rw [e0]; omega
  | ⟨1, _⟩ => show win1_1.index t (1 : Fin 2) * 128 + 1 * (y 1).val = (y 1).val; rw [e1]; omega

theorem blk_2 (c : Dev nD) (t : Fin cfg1.N) : iblk1 V c 2 t = V c main_v38 := by
  funext y
  obtain ⟨-, -, -, -, e0, e1, -⟩ := idx_facts t
  show V c main_v38 (((cfg1.win 2).blk t).view.emb y) = V c main_v38 y
  refine congrArg _ (funext fun ax => Fin.ext ?_)
  match ax with
  | ⟨0, _⟩ => show win1_2.index t (0 : Fin 2) * 64 + 1 * (y 0).val = (y 0).val; rw [e0]; omega
  | ⟨1, _⟩ => show win1_2.index t (1 : Fin 2) * 128 + 1 * (y 1).val = (y 1).val; rw [e1]; omega

theorem blk_3 (c : Dev nD) (t : Fin cfg1.N) : iblk1 V c 3 t = V c main_v40 := by
  funext y
  obtain ⟨-, -, -, -, -, -, e0, e1, -⟩ := idx_facts t
  show V c main_v40 (((cfg1.win 3).blk t).view.emb y) = V c main_v40 y
  refine congrArg _ (funext fun ax => Fin.ext ?_)
  match ax with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Where entry (p, q) of the output's block t sits in the output array: row 5000 t + p, column q. -/
theorem emb_out (t : Fin cfg1.N) (p : Fin 5000) (q : Fin 128) :
    ((cfg1.win 4).blk t).view.emb (ix2 p q) = ix2 (⟨t.val * 5000 + p.val, by have := hoff t; omega⟩ : Fin 100000) q := by
  obtain ⟨-, -, -, -, -, -, -, -, e0, e1⟩ := idx_facts t
  refine funext fun ax => Fin.ext ?_
  match ax with
  | ⟨0, _⟩ => show win1_4.index t (0 : Fin 2) * 5000 + 1 * p.val = t.val * 5000 + p.val; rw [e0]; omega
  | ⟨1, _⟩ => show win1_4.index t (1 : Fin 2) * 128 + 1 * q.val = q.val; rw [e1]; omega

/-- The update of all nodes, of the four arrays the region finds. -/
abbrev G (c : Dev nD) : S100000x128.Idx → EReal :=
  Cert.Mpnn.upd (V c main_v0) (V c main_v36) (V c main_v38) (V c main_v40)

/-- What point t writes back is block t of the update of all nodes. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x128) hz,
    View.ld_unit_zero (S := S5000x128) hz, View.ld_unit_zero (S := S128x128) hz]
  rw [pay_eq, blk_0, blk_1, blk_2, blk_3]
  funext j
  obtain ⟨p, q, rfl⟩ : ∃ (p : Fin 5000) (q : Fin 128), j = ix2 p q := ⟨j 0, j 1, eq_ix2 j⟩
  show Cert.Mpnn.upd (Cert.Sage.rows (t.val * 5000) (hoff t) (V c main_v0)) (Cert.Sage.rows (t.val * 5000) (hoff t) (V c main_v36))
      (V c main_v38) (V c main_v40) (ix2 p q)
    = G V c (((cfg1.win 4).blk t).view.emb (ix2 p q))
  rw [emb_out, Cert.Mpnn.upd_rows]

/-- An index of the output array is in point t's block iff each coordinate is in the block's range on its axis. -/
theorem mem_blk (t : Fin cfg1.N) (i : S100000x128.Idx) :
    i ∈ ((cfg1.win 4).blk t).view.set ↔ ∀ ax : Fin 2, win1_4.index t ax * S5000x128.size ax ≤ (i ax).val
      ∧ (i ax).val < win1_4.index t ax * S5000x128.size ax + S5000x128.size ax := by
  show i ∈ ((View.whole main_v41).slice (win1_4.rect t)).set ↔ _
  rw [View.set_slice_whole, Rect.mem_set_unit]
  exact Iff.rfl

/-- Every entry of the output array is in the block of the point that holds its row. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by omega⟩, flush1_4 _, ?_⟩
  obtain ⟨-, -, -, -, -, -, -, -, e0, e1⟩ := idx_facts ⟨(i 0).val / 5000, by omega⟩
  rw [mem_blk]
  intro ax
  match ax with
  | ⟨0, _⟩ =>
    show win1_4.index _ (0 : Fin 2) * 5000 ≤ (i 0).val ∧ (i 0).val < win1_4.index _ (0 : Fin 2) * 5000 + 5000
    rw [e0]
    show (i 0).val / 5000 * 5000 ≤ (i 0).val ∧ (i 0).val < (i 0).val / 5000 * 5000 + 5000
    omega
  | ⟨1, _⟩ =>
    show win1_4.index _ (1 : Fin 2) * 128 ≤ (i 1).val ∧ (i 1).val < win1_4.index _ (1 : Fin 2) * 128 + 128
    rw [e1]
    omega

/-- After the region its output array holds the update of all nodes. -/
theorem final (c : Dev nD) : (dat1 V c).arrAt 4 cfg1.N = G V c :=
  (dat1 V c).arrAt_eq_of_cover 4 (G V c) (fun t _ => flushed_eq V c t) cover

end Cert.KernelIdeal.Upds

end
-- ==== Proof.RefTerms.lean ====
/-
  The message-passing layer as the reference spells it, piece by piece, as functions of whole arrays.

  For node features h : [N, 64], edge features e : [E, 32], endpoints src, dst : [E] (32-bit words), and weights
  M : [160, 128], U : [192, 128]:
    * `gath h ix` are the rows of h picked by the words ix, a negative word first moved up by N (the wrap-around of
      a negative index), laid out as [E, 64];
    * `leakyE`, `leakyN` are the leaky rectifier x ↦ x if x ≥ 0 else 0.01 * x on [E, 128] and [N, 128] arrays;
    * `agg dst m` is the mean of the rows m(k, ·) over the edges k whose destination is a node: the rows added into a zero
      [N, 128] array at dst, divided by the count of such edges (ones added into a zero [N] vector at dst), the count
      bounded below by one;
    * `refOut` is the whole layer: messages leaky([h[src] | h[dst] | e] M), their mean per destination node, and the update
      leaky([h | mean] U).
-/
import proofs.«106164_j70626442215972_1_alg».proof.ReferenceIdeal
import proofs.«106164_j70626442215972_1_alg».proof.Proof.Gen.ReferenceIdeal

noncomputable section

namespace Cert.Mpnn

open Idealize.ShloMosaic Cert.ReferenceIdeal Cert.ReferenceIdeal.Facts₀

variable {F : FTy → Type} [FloatOps F]

/-- The row numbers a gather reads: each word, moved up by the number of nodes when negative, as a column. -/
def wrapIdx (ix : IVec S1600000 32) : IVec S1600000x1 32 :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- The rows of h at the words ix. -/
def gath (h : FVec F S100000x64 .f32) (ix : IVec S1600000 32) : FVec F S1600000x64 .f32 :=
  Host.gather gather_S100000x64_S1600000x1_S1600000x64_1_0_n_n_0_1_164 h (wrapIdx ix)

/-- The leaky rectifier on an edge array. -/
def leakyE (x : FVec F S1600000x128 .f32) : FVec F S1600000x128 .f32 :=
  select (cmpf .oge x (broadcastInDim S1600000x128 ![] bcast_S_S1600000x128 (constant S_ .f32 0x00000000#32))) x
    (mulf (broadcastInDim S1600000x128 ![] bcast_S_S1600000x128 (constant S_ .f32 0x3C23D70A#32)) x)

/-- The leaky rectifier on a node array. -/
def leakyN (x : FVec F S100000x128 .f32) : FVec F S100000x128 .f32 :=
  select (cmpf .oge x (broadcastInDim S100000x128 ![] bcast_S_S100000x128 (constant S_ .f32 0x00000000#32))) x
    (mulf (broadcastInDim S100000x128 ![] bcast_S_S100000x128 (constant S_ .f32 0x3C23D70A#32)) x)

/-- The mean of the messages per destination node. -/
def agg (dst : IVec S1600000 32) (msgs : FVec F S1600000x128 .f32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst) msgs)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- The messages as the reference computes them: one product with the joined features. -/
def refMsg (h : FVec F S100000x64 .f32) (e : FVec F S1600000x32 .f32) (src dst : IVec S1600000 32)
    (Mw : FVec F S160x128 .f32) : FVec F S1600000x128 .f32 :=
  leakyE (Host.dotGeneral dot_S1600000x160_S160x128_S1600000x128_1_0_0_1_n_n none
    (concatenate S1600000x160 1 [⟨S1600000x64, gath h src⟩, ⟨S1600000x64, gath h dst⟩, ⟨S1600000x32, e⟩]
      concatenates_S1600000x64_S1600000x64_S1600000x32_S1600000x160_d1) Mw)

/-- The node update as the reference computes it: one product with the joined node features. -/
def refUpd (h : FVec F S100000x64 .f32) (hN : FVec F S100000x128 .f32) (Uw : FVec F S192x128 .f32) :
    FVec F S100000x128 .f32 :=
  leakyN (Host.dotGeneral dot_S100000x192_S192x128_S100000x128_1_0_0_1_n_n none
    (concatenate S100000x192 1 [⟨S100000x64, h⟩, ⟨S100000x128, hN⟩] concatenates_S100000x64_S100000x128_S100000x192_d1) Uw)

/-- The whole layer as the reference computes it. -/
def refOut (h : FVec F S100000x64 .f32) (e : FVec F S1600000x32 .f32) (src dst : IVec S1600000 32)
    (Mw : FVec F S160x128 .f32) (Uw : FVec F S192x128 .f32) : FVec F S100000x128 .f32 :=
  refUpd h (agg dst (refMsg h e src dst Mw)) Uw

end Cert.Mpnn

end
-- ==== Proof.Bridge.lean ====
/-
  The layer as the kernel computes it, and why it is the layer as the reference computes it.

  The kernel forms the messages as three partial products against the three consecutive row slices of the message
  weights (rows 0–63 for the source features, 64–127 for the destination features, 128–159 for the edge features), and
  the update as two partial products against the two row slices of the update weights (rows 0–63 for the node's own
  features, 64–191 for the aggregated messages). The reference joins the feature arrays side by side and takes one
  product with the whole weight matrix. Entry by entry the reference's one sum over the joined axis is the kernel's sum
  of partial sums, so the messages agree as whole arrays; the mean over destination nodes is then the same function of
  the same array on both sides, and the updates agree for the same reason as the messages.
-/
import proofs.«106164_j70626442215972_1_alg».proof.Proof.RefTerms
import proofs.«106164_j70626442215972_1_alg».proof.Proof.LibJoinSplit

noncomputable section

namespace Cert.Mpnn

open Idealize.ShloMosaic Cert.ReferenceIdeal Cert.ReferenceIdeal.Facts₀

/-- The messages as the kernel computes them: partial products against the three row slices of the weights. -/
def kernMsg (h : FVec Ideal S100000x64 .f32) (e : FVec Ideal S1600000x32 .f32) (src dst : IVec S1600000 32)
    (Mw : FVec Ideal S160x128 .f32) : FVec Ideal S1600000x128 .f32 :=
  msg (gath (F := Ideal) h src) (gath (F := Ideal) h dst) e
    (Cert.Sage.rows (a := 64) 0 (by omega) Mw) (Cert.Sage.rows (a := 64) 64 (by omega) Mw)
    (Cert.Sage.rows (a := 32) 128 (by omega) Mw)

/-- The whole layer as the kernel computes it. -/
def kernOut (h : FVec Ideal S100000x64 .f32) (e : FVec Ideal S1600000x32 .f32) (src dst : IVec S1600000 32)
    (Mw : FVec Ideal S160x128 .f32) (Uw : FVec Ideal S192x128 .f32) : FVec Ideal S100000x128 .f32 :=
  upd h (agg (F := Ideal) dst (kernMsg h e src dst Mw))
    (Cert.Sage.rows (a := 64) 0 (by omega) Uw) (Cert.Sage.rows (a := 128) 64 (by omega) Uw)

/-- The reference's messages are the kernel's. -/
theorem refMsg_eq (h : FVec Ideal S100000x64 .f32) (e : FVec Ideal S1600000x32 .f32) (src dst : IVec S1600000 32)
    (Mw : FVec Ideal S160x128 .f32) : refMsg (F := Ideal) h e src dst Mw = kernMsg h e src dst Mw := by
  unfold refMsg leakyE kernMsg
  exact host_msg dot_S1600000x160_S160x128_S1600000x128_1_0_0_1_n_n rfl rfl rfl rfl rfl rfl
    (by rfl : 64 + 64 + 32 = 160) (gath (F := Ideal) h src) (gath (F := Ideal) h dst) e Mw _ _ _

/-- The reference's update of any aggregated array is the kernel's. -/
theorem refUpd_eq (h : FVec Ideal S100000x64 .f32) (hN : FVec Ideal S100000x128 .f32) (Uw : FVec Ideal S192x128 .f32) :
    refUpd (F := Ideal) h hN Uw
      = upd h hN (Cert.Sage.rows (a := 64) 0 (by omega) Uw) (Cert.Sage.rows (a := 128) 64 (by omega) Uw) := by
  unfold refUpd leakyN
  exact host_upd dot_S100000x192_S192x128_S100000x128_1_0_0_1_n_n rfl rfl rfl rfl rfl rfl
    (by rfl : 64 + 128 = 192) h hN Uw _ _ _

/-- The two programs compute one function of the six arguments. -/
theorem refOut_eq (h : FVec Ideal S100000x64 .f32) (e : FVec Ideal S1600000x32 .f32) (src dst : IVec S1600000 32)
    (Mw : FVec Ideal S160x128 .f32) (Uw : FVec Ideal S192x128 .f32) :
    refOut (F := Ideal) h e src dst Mw Uw = kernOut h e src dst Mw Uw := by
  unfold refOut kernOut
  rw [refMsg_eq, refUpd_eq]

end Cert.Mpnn

end
-- ==== Proof.KernelValue.lean ====
/-
  What the idealized kernel's result buffer holds at the end, as one function of the six arguments.

  Reading backwards from the result: the update region's output is the update of the four arrays it finds — the node
  features, the aggregated messages, and the two row slices of the update weights. The host operations between the
  regions compute the aggregated messages (the mean per destination node of the message region's output) and the two
  slices, and leave the node features alone. The message region's output is the messages of the six arrays it finds — the
  gathered source and destination features, the edge features, and the three row slices of the message weights — which
  the host operations before it compute from the arguments. A change of float format is the identity on extended
  reals, so the narrowed copies the kernel passes around are the arrays themselves.
-/
import proofs.«106164_j70626442215972_1_alg».proof.Proof.Gen.KernelIdeal.Frame
import proofs.«106164_j70626442215972_1_alg».proof.Proof.Blocks0
import proofs.«106164_j70626442215972_1_alg».proof.Proof.Blocks1
import proofs.«106164_j70626442215972_1_alg».proof.Proof.Bridge
import Idealize.ShloMosaic.Lib.StableHlo.Run

set_option maxRecDepth 16384

noncomputable section

namespace Cert.KernelIdeal.Bounds

open Cert.KernelIdeal Cert.KernelIdeal.Gen
open Idealize.ShloMosaic Idealize.ShloMosaic.TcCoe Idealize.SL.Sem Idealize.ShloMosaic.StableHlo

/-- Narrowing the float format of an array of extended reals changes nothing. -/
theorem truncf_id {s : Shape} {φ ψ : FTy} (a : FVec Ideal s φ) (h : ψ.bits < φ.bits) :
    (truncf ψ a h : FVec Ideal s ψ) = a := rfl

/-- Widening the float format of an array of extended reals changes nothing. -/
theorem extf_id {s : Shape} {φ ψ : FTy} (a : FVec Ideal s φ) (h : φ.bits < ψ.bits) :
    (extf ψ a h : FVec Ideal s ψ) = a := rfl

/-! ## The host operations before the message region, read at what the regions consume -/

section Stretch0

variable (X : Valuation τ sig (Elt Ideal))

theorem ops0_v8 : StableHlo.after hostOps0 X (Proc.devRef .tc main_v8)
    = Cert.Mpnn.gath (F := Ideal) (X (Proc.devRef .tc main_arg0)) (X (Proc.devRef .tc main_arg2)) := by
  after_results_simp
  rfl

theorem ops0_v15 : StableHlo.after hostOps0 X (Proc.devRef .tc main_v15)
    = Cert.Mpnn.gath (F := Ideal) (X (Proc.devRef .tc main_arg0)) (X (Proc.devRef .tc main_arg3)) := by
  after_results_simp
  rfl

theorem ops0_v1 : StableHlo.after hostOps0 X (Proc.devRef .tc main_v1) = X (Proc.devRef .tc main_arg1) := by
  after_results_simp
  rfl

theorem ops0_v0 : StableHlo.after hostOps0 X (Proc.devRef .tc main_v0) = X (Proc.devRef .tc main_arg0) := by
  after_results_simp
  rfl

theorem ops0_v17 : StableHlo.after hostOps0 X (Proc.devRef .tc main_v17)
    = Cert.Sage.rows (a := 64) (N := 160) (k := 128) 0 (by omega) (X (Proc.devRef .tc main_arg4)) := by
  after_results_simp
  funext i
  exact congrFun (Cert.Mpnn.slice_rows 0 (by omega) (X (Proc.devRef .tc main_arg4)) Gen.slices_S160x128_S64x128_0_0) i

theorem ops0_v19 : StableHlo.after hostOps0 X (Proc.devRef .tc main_v19)
    = Cert.Sage.rows (a := 64) (N := 160) (k := 128) 64 (by omega) (X (Proc.devRef .tc main_arg4)) := by
  after_results_simp
  funext i
  exact congrFun (Cert.Mpnn.slice_rows 64 (by omega) (X (Proc.devRef .tc main_arg4)) Gen.slices_S160x128_S64x128_64_0) i

theorem ops0_v21 : StableHlo.after hostOps0 X (Proc.devRef .tc main_v21)
    = Cert.Sage.rows (a := 32) (N := 160) (k := 128) 128 (by omega) (X (Proc.devRef .tc main_arg4)) := by
  after_results_simp
  funext i
  exact congrFun (Cert.Mpnn.slice_rows 128 (by omega) (X (Proc.devRef .tc main_arg4)) Gen.slices_S160x128_S32x128_128_0) i

theorem ops0_arg3 : StableHlo.after hostOps0 X (Proc.devRef .tc main_arg3) = X (Proc.devRef .tc main_arg3) := by
  after_results_simp

theorem ops0_arg5 : StableHlo.after hostOps0 X (Proc.devRef .tc main_arg5) = X (Proc.devRef .tc main_arg5) := by
  after_results_simp

end Stretch0

/-! ## The host operations between the regions, read at what the update region consumes -/

section Stretch1

variable (Y : Valuation τ sig (Elt Ideal))

theorem ops1_v36 : StableHlo.after hostOps1 Y (Proc.devRef .tc main_v36)
    = Cert.Mpnn.agg (F := Ideal) (Y (Proc.devRef .tc main_arg3)) (Y (Proc.devRef .tc main_v22)) := by
  after_results_simp
  rw [truncf_id, extf_id]
  rfl

theorem ops1_v38 : StableHlo.after hostOps1 Y (Proc.devRef .tc main_v38)
    = Cert.Sage.rows (a := 64) (N := 192) (k := 128) 0 (by omega) (Y (Proc.devRef .tc main_arg5)) := by
  after_results_simp
  funext i
  exact congrFun (Cert.Mpnn.slice_rows 0 (by omega) (Y (Proc.devRef .tc main_arg5)) Gen.slices_S192x128_S64x128_0_0) i

theorem ops1_v40 : StableHlo.after hostOps1 Y (Proc.devRef .tc main_v40)
    = Cert.Sage.rows (a := 128) (N := 192) (k := 128) 64 (by omega) (Y (Proc.devRef .tc main_arg5)) := by
  after_results_simp
  funext i
  exact congrFun (Cert.Mpnn.slice_rows 64 (by omega) (Y (Proc.devRef .tc main_arg5)) Gen.slices_S192x128_S128x128_64_0) i

theorem ops1_v0 : StableHlo.after hostOps1 Y (Proc.devRef .tc main_v0) = Y (Proc.devRef .tc main_v0) := by
  after_results_simp

end Stretch1

/-! ## From the launch memory to the result -/

variable (m : (ℓ : Loc nD τ sig) → Buf (Elt Ideal) ℓ) (ρ : Dev nD → PrngReg)

/-- The message region's output array, of the arguments. -/
theorem msgs_eq (c : Dev nD) : W2 m ρ c (Proc.devRef .tc main_v22)
    = Cert.Mpnn.kernMsg (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 6).trans ?_
  rw [Cert.KernelIdeal.Msgs.final]
  show Cert.Mpnn.msg (V1 m ρ c main_v8) (V1 m ρ c main_v15) (V1 m ρ c main_v1) (V1 m ρ c main_v17) (V1 m ρ c main_v19)
    (V1 m ρ c main_v21) = _
  rw [show V1 m ρ c main_v8 = _ from ops0_v8 (W0 m ρ c), show V1 m ρ c main_v15 = _ from ops0_v15 (W0 m ρ c),
    show V1 m ρ c main_v1 = _ from ops0_v1 (W0 m ρ c), show V1 m ρ c main_v17 = _ from ops0_v17 (W0 m ρ c),
    show V1 m ρ c main_v19 = _ from ops0_v19 (W0 m ρ c), show V1 m ρ c main_v21 = _ from ops0_v21 (W0 m ρ c)]
  rfl

/-- The result buffer at the last boundary is the kernel's function of the six arguments. -/
theorem out_eq (c : Dev nD) : W4 m ρ c (Proc.devRef .tc main_v41)
    = Cert.Mpnn.kernOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have e0 : V3 m ρ c main_v0 = m ((c : Thread nD τ).loc main_arg0) :=
    (ops1_v0 (W2 m ρ c)).trans ((W2_of_ne m ρ c main_v0 (by decide)).trans (ops0_v0 (W0 m ρ c)))
  have a3 : W2 m ρ c (Proc.devRef .tc main_arg3) = m ((c : Thread nD τ).loc main_arg3) :=
    (W2_of_ne m ρ c main_arg3 (by decide)).trans (ops0_arg3 (W0 m ρ c))
  have a5 : W2 m ρ c (Proc.devRef .tc main_arg5) = m ((c : Thread nD τ).loc main_arg5) :=
    (W2_of_ne m ρ c main_arg5 (by decide)).trans (ops0_arg5 (W0 m ρ c))
  have e36 : V3 m ρ c main_v36 = Cert.Mpnn.agg (F := Ideal) (m ((c : Thread nD τ).loc main_arg3))
      (Cert.Mpnn.kernMsg (m ((c : Thread nD τ).loc main_arg0)) (m ((c : Thread nD τ).loc main_arg1))
        (m ((c : Thread nD τ).loc main_arg2)) (m ((c : Thread nD τ).loc main_arg3)) (m ((c : Thread nD τ).loc main_arg4))) := by
    refine (ops1_v36 (W2 m ρ c)).trans ?_
    rw [a3, msgs_eq]
  have e38 : V3 m ρ c main_v38 = Cert.Sage.rows (a := 64) (N := 192) (k := 128) 0 (by omega) (m ((c : Thread nD τ).loc main_arg5)) := by
    refine (ops1_v38 (W2 m ρ c)).trans ?_
    rw [a5]
  have e40 : V3 m ρ c main_v40 = Cert.Sage.rows (a := 128) (N := 192) (k := 128) 64 (by omega) (m ((c : Thread nD τ).loc main_arg5)) := by
    refine (ops1_v40 (W2 m ρ c)).trans ?_
    rw [a5]
  refine (W4_arr m ρ c 4).trans ?_
  rw [Cert.KernelIdeal.Upds.final]
  show Cert.Mpnn.upd (V3 m ρ c main_v0) (V3 m ρ c main_v36) (V3 m ρ c main_v38) (V3 m ρ c main_v40) = _
  rw [e0, e36, e38, e40]
  rfl

end Cert.KernelIdeal.Bounds

end
-- ==== Proof.LibNary3.lean ====
/-
  A host operation with a literal family of THREE operand buffers (a three-operand concatenate), read at its result:
  the operation's function of the three operands' contents, each read at its own buffer — so that reading a line of
  operations can go on into the operands.  (The library states this for a family of four; over a family given only as
  a function of the index the operands' buffers are not literal and the reading stops there.)  With it, the one-pass
  reading of a line of operations that contains such an operation.
-/
import Idealize.ShloMosaic.Lib.StableHlo.Run

namespace Cert.Nary3

open Idealize.ShloMosaic Idealize.ShloMosaic.StableHlo

variable {nD : Nat} {τ : Topo} {sig : RefSig} {Val : EltTy → Type}
variable {x a b y : Ref sig .tc}

/-- The result of an operation over the three literal operands x, a, b, read at its result buffer y. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form the one-pass reading rewrites with. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Nary3

/-- The one-pass reading of a line of host operations, with the three-operand family read at its literal operands. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Cert.Nary3.nary3_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.LibFoldAppend.lean ====
/-
  A line of host operations cut in two.

  The buffer contents after a line of host operations are a fold: each operation rewrites its own result buffer from
  the buffers it reads and leaves the rest.  The fold over a concatenation of two lines is the fold over the second,
  started from the fold over the first.  So a long line can be read stretch by stretch: cut it where a called
  function's operations begin and end, state what each stretch leaves in the buffers the later ones read as a small
  function of ANY contents before it, and follow the boundaries forward from the launch contents.  Read that way a
  called function's operations (whose values pass through casts between two spellings of one type) only ever act on
  variables, and every step is a small equation; read in one piece, the same casts sit around large terms.
-/
import Idealize.ShloMosaic.Lib.StableHlo.Run

namespace Cert.FoldAppend

open Idealize.ShloMosaic Idealize.ShloMosaic.StableHlo

variable {τ : Topo} {sig : RefSig} {Val : EltTy → Type}

/-- The fold of a concatenation is the fold of the second part over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.FoldAppend
-- ==== Proof.RefRunOps.lean ====
/-
  The reference program as one straight line of host operations.

  The program is thirty-eight operations of its own and two applications of the leaky rectifier, a function of seven
  operations (the zero and its broadcast, the comparison x ≥ 0, the slope 0.01 and its broadcast, the product
  0.01 * x, and the selection between x and the product, which is itself a function of one operation).  A called
  function runs its operations on buffers of the caller's, one per value of its body; so the whole program is the list
  of fifty-two operations below: twenty that build the joined edge features and their product with the first weight
  matrix, the seven of the rectifier on the [E, 128] messages, eighteen that average the messages per destination node
  and multiply the joined node features by the second weight matrix, and the seven of the rectifier on the [N, 128]
  result.  Run in order from any contents, every buffer ends at the fold of the operations over its contents at launch.
-/
import proofs.«106164_j70626442215972_1_alg».proof.ReferenceIdeal
import proofs.«106164_j70626442215972_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- The program's fifty-two operations, in order, the two calls of the rectifier unfolded at their sites over the
    buffers of each call. -/
abbrev ops : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg2 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg2 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg2 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v7 (broadcastInDim S1600000 ![] bcast_S_S1600000 : (⟨S_, .i32⟩ : BufTy).Contents (Elt F) → (⟨S1600000, .i32⟩ : BufTy).Contents (Elt F)),
    StableHlo.binary main_arg3 main_v7 main_v8 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v9 (broadcastInDim S1600000 ![] bcast_S_S1600000 : (⟨S_, .i32⟩ : BufTy).Contents (Elt F) → (⟨S1600000, .i32⟩ : BufTy).Contents (Elt F)),
    StableHlo.binary main_arg3 main_v9 main_v10 (addi : (⟨S1600000, .i32⟩ : BufTy).Contents (Elt F) → (⟨S1600000, .i32⟩ : BufTy).Contents (Elt F) → (⟨S1600000, .i32⟩ : BufTy).Contents (Elt F)),
    StableHlo.ternary main_v8 main_v10 main_arg3 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v11 main_v12 (broadcastInDim S1600000x1 ![0] bcast_S1600000_S1600000x1_0 : (⟨S1600000, .i32⟩ : BufTy).Contents (Elt F) → (⟨S1600000x1, .i32⟩ : BufTy).Contents (Elt F)),
    StableHlo.binary main_arg0 main_v12 main_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nary ![main_v6, main_v13, main_arg1] main_v14 (fun u => concatenate S1600000x160 1 [⟨S1600000x64, u 0⟩, ⟨S1600000x64, u 1⟩, ⟨S1600000x32, u 2⟩] concatenates_S1600000x64_S1600000x64_S1600000x32_S1600000x160_d1),
    StableHlo.binary main_v14 main_arg4 main_v15 ((fun l r => Host.dotGeneral dot_S1600000x160_S160x128_S1600000x128_1_0_0_1_n_n none l r) : (⟨S1600000x160, .f32⟩ : BufTy).Contents (Elt F) → (⟨S160x128, .f32⟩ : BufTy).Contents (Elt F) → (⟨S1600000x128, .f32⟩ : BufTy).Contents (Elt F)),
    TRef.nullary main_call0.cst (constant S_ .f32 0x00000000#32),
    TRef.unary main_call0.cst main_call0.v0 (broadcastInDim S1600000x128 ![] bcast_S_S1600000x128),
    TRef.binary (.of main_v15 : TRef sig ⟨S1600000x128, .f32⟩) main_call0.v0 main_call0.v1 (cmpf .oge),
    TRef.nullary main_call0.cst_0 (constant S_ .f32 0x3C23D70A#32),
    TRef.unary main_call0.cst_0 main_call0.v2 (broadcastInDim S1600000x128 ![] bcast_S_S1600000x128),
    TRef.binary main_call0.v2 (.of main_v15 : TRef sig ⟨S1600000x128, .f32⟩) main_call0.v3 mulf,
    TRef.ternary main_call0.v1 (.of main_v15 : TRef sig ⟨S1600000x128, .f32⟩) main_call0.v3 main_call0_call0.v0 select,
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_arg3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_3 (constant S_ .f32 0x3F800000#32),
    StableHlo.unary main_cst_3 main_v20 (broadcastInDim S1600000 ![] bcast_S_S1600000 : (⟨S_, .f32⟩ : BufTy).Contents (Elt F) → (⟨S1600000, .f32⟩ : BufTy).Contents (Elt F)),
    StableHlo.nullary main_cst_4 (constant S_ .f32 0x00000000#32),
    StableHlo.unary main_cst_4 main_v21 (broadcastInDim S100000 ![] bcast_S_S100000 : (⟨S_, .f32⟩ : BufTy).Contents (Elt F) → (⟨S100000, .f32⟩ : BufTy).Contents (Elt F)),
    StableHlo.unary main_arg3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_5 (constant S_ .f32 0x3F800000#32),
    StableHlo.unary main_cst_5 main_v24 (broadcastInDim S100000 ![] bcast_S_S100000 : (⟨S_, .f32⟩ : BufTy).Contents (Elt F) → (⟨S100000, .f32⟩ : BufTy).Contents (Elt F)),
    StableHlo.binary main_v23 main_v24 main_v25 (maximumf : (⟨S100000, .f32⟩ : BufTy).Contents (Elt F) → (⟨S100000, .f32⟩ : BufTy).Contents (Elt F) → (⟨S100000, .f32⟩ : BufTy).Contents (Elt F)),
    StableHlo.unary main_v25 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v19 main_v27 main_v28 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_v28 main_v29 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    StableHlo.binary main_v29 main_arg5 main_v30 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v30 : TRef sig ⟨S100000x128, .f32⟩) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v30 : TRef sig ⟨S100000x128, .f32⟩) main_call1.v3 mulf,
    TRef.ternary main_call1.v1 (.of main_v30 : TRef sig ⟨S100000x128, .f32⟩) main_call1.v3 main_call1_call0.v0 select ]

-- fifty-two binds re-associated: one level of recursion per statement
set_option maxRecDepth 1024 in
/-- The program is that straight line: the called functions unfolded at their calls, both sides are one chain of
    steps once the sequencing is re-associated. -/
theorem main_eq (c : Dev nD) : main (F := F) c = seq ops := by
  simp only [main, fn_leaky_relu.body, fn_where.body, fn_leaky_relu_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., nullary_bufs_sub .., unary_bufs_sub .., binary_bufs_sub ..,
    nullary_bufs_sub .., unary_bufs_sub .., binary_bufs_sub .., ternary_bufs_sub ..⟩

/-- From any memory with zero counters, every weakly fair execution of the program terminates, and every buffer ends at
    the fold of the fifty-two operations over the contents at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefRun.lean ====
/-
  What the reference program leaves in its result buffer: the message-passing layer of the node features, the edge
  features, the two endpoint vectors and the two weight matrices, as `Cert.Mpnn.refOut` spells it; and its six
  arguments unchanged.

  The buffer contents after the program's fifty-two operations are a fold.  The fold is read in four stretches, each
  over ANY contents V before it:
    * the first twenty operations leave in the buffer of the first product
        [ h[src] | h[dst] | e ] M ,
      each gather's index column being the endpoint vector with its negative words moved up by the number of nodes —
      the very operations `gath` is made of;
    * the seven operations of the rectifier turn the contents x of that buffer into  x if x ≥ 0 else 0.01 * x  in the
      buffer of the messages (`leakyE`): a called function's operations pass each value through the two spellings of
      its buffer's type and back, which changes nothing;
    * the next eighteen add the messages into a zero [N, 128] array at the destinations, add ones into a zero [N]
      vector at the destinations, bound that count below by one, divide (`agg`), join the node features with the
      quotient and multiply by U;
    * the last seven are the rectifier again, on [N, 128] (`leakyN`).
  No stretch writes an argument, and each later stretch reads only arguments and the one buffer the stretch before it
  ends in; following these boundaries from the contents at launch, the result buffer holds
      leakyN ([ h | agg dst (leakyE ([ h[src] | h[dst] | e ] M)) ] U) ,
  which is `refOut h e src dst M U` by the definitions of `refOut`, `refUpd` and `refMsg`.
-/
import proofs.«106164_j70626442215972_1_alg».proof.ReferenceIdeal
import proofs.«106164_j70626442215972_1_alg».proof.Proof.Gen.ReferenceIdeal
import Idealize.ShloMosaic.Lib.StableHlo.Run
import proofs.«106164_j70626442215972_1_alg».proof.Proof.RefTerms
import proofs.«106164_j70626442215972_1_alg».proof.Proof.LibNary3
import proofs.«106164_j70626442215972_1_alg».proof.Proof.LibFoldAppend
import proofs.«106164_j70626442215972_1_alg».proof.Proof.RefRunOps

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Cert.Mpnn

variable {F : FTy → Type} [FloatOps F]

/-! ## The four stretches -/

/-- The first twenty operations: the two gathers of node rows (each index vector first wrapped), the three-part join
    with the edge features, and the product with the first weight matrix. -/
abbrev opsA : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg2 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg2 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg2 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v7 (broadcastInDim S1600000 ![] bcast_S_S1600000 : (⟨S_, .i32⟩ : BufTy).Contents (Elt F) → (⟨S1600000, .i32⟩ : BufTy).Contents (Elt F)),
    StableHlo.binary main_arg3 main_v7 main_v8 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v9 (broadcastInDim S1600000 ![] bcast_S_S1600000 : (⟨S_, .i32⟩ : BufTy).Contents (Elt F) → (⟨S1600000, .i32⟩ : BufTy).Contents (Elt F)),
    StableHlo.binary main_arg3 main_v9 main_v10 (addi : (⟨S1600000, .i32⟩ : BufTy).Contents (Elt F) → (⟨S1600000, .i32⟩ : BufTy).Contents (Elt F) → (⟨S1600000, .i32⟩ : BufTy).Contents (Elt F)),
    StableHlo.ternary main_v8 main_v10 main_arg3 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v11 main_v12 (broadcastInDim S1600000x1 ![0] bcast_S1600000_S1600000x1_0 : (⟨S1600000, .i32⟩ : BufTy).Contents (Elt F) → (⟨S1600000x1, .i32⟩ : BufTy).Contents (Elt F)),
    StableHlo.binary main_arg0 main_v12 main_v13 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nary ![main_v6, main_v13, main_arg1] main_v14 (fun u => concatenate S1600000x160 1 [⟨S1600000x64, u 0⟩, ⟨S1600000x64, u 1⟩, ⟨S1600000x32, u 2⟩] concatenates_S1600000x64_S1600000x64_S1600000x32_S1600000x160_d1),
    StableHlo.binary main_v14 main_arg4 main_v15 ((fun l r => Host.dotGeneral dot_S1600000x160_S160x128_S1600000x128_1_0_0_1_n_n none l r) : (⟨S1600000x160, .f32⟩ : BufTy).Contents (Elt F) → (⟨S160x128, .f32⟩ : BufTy).Contents (Elt F) → (⟨S1600000x128, .f32⟩ : BufTy).Contents (Elt F)) ]

/-- The seven operations of the rectifier on the messages. -/
abbrev opsE : List (HloOp τ sig (Elt F)) :=
  [ TRef.nullary main_call0.cst (constant S_ .f32 0x00000000#32),
    TRef.unary main_call0.cst main_call0.v0 (broadcastInDim S1600000x128 ![] bcast_S_S1600000x128),
    TRef.binary (.of main_v15 : TRef sig ⟨S1600000x128, .f32⟩) main_call0.v0 main_call0.v1 (cmpf .oge),
    TRef.nullary main_call0.cst_0 (constant S_ .f32 0x3C23D70A#32),
    TRef.unary main_call0.cst_0 main_call0.v2 (broadcastInDim S1600000x128 ![] bcast_S_S1600000x128),
    TRef.binary main_call0.v2 (.of main_v15 : TRef sig ⟨S1600000x128, .f32⟩) main_call0.v3 mulf,
    TRef.ternary main_call0.v1 (.of main_v15 : TRef sig ⟨S1600000x128, .f32⟩) main_call0.v3 main_call0_call0.v0 select ]

/-- The next eighteen operations: the messages added per destination node, the count of edges per node bounded below by
    one, the quotient, its join with the node features, and the product with the second weight matrix. -/
abbrev opsB : List (HloOp τ sig (Elt F)) :=
  [ StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_arg3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_3 (constant S_ .f32 0x3F800000#32),
    StableHlo.unary main_cst_3 main_v20 (broadcastInDim S1600000 ![] bcast_S_S1600000 : (⟨S_, .f32⟩ : BufTy).Contents (Elt F) → (⟨S1600000, .f32⟩ : BufTy).Contents (Elt F)),
    StableHlo.nullary main_cst_4 (constant S_ .f32 0x00000000#32),
    StableHlo.unary main_cst_4 main_v21 (broadcastInDim S100000 ![] bcast_S_S100000 : (⟨S_, .f32⟩ : BufTy).Contents (Elt F) → (⟨S100000, .f32⟩ : BufTy).Contents (Elt F)),
    StableHlo.unary main_arg3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_5 (constant S_ .f32 0x3F800000#32),
    StableHlo.unary main_cst_5 main_v24 (broadcastInDim S100000 ![] bcast_S_S100000 : (⟨S_, .f32⟩ : BufTy).Contents (Elt F) → (⟨S100000, .f32⟩ : BufTy).Contents (Elt F)),
    StableHlo.binary main_v23 main_v24 main_v25 (maximumf : (⟨S100000, .f32⟩ : BufTy).Contents (Elt F) → (⟨S100000, .f32⟩ : BufTy).Contents (Elt F) → (⟨S100000, .f32⟩ : BufTy).Contents (Elt F)),
    StableHlo.unary main_v25 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v19 main_v27 main_v28 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_v28 main_v29 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    StableHlo.binary main_v29 main_arg5 main_v30 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)) ]

/-- The seven operations of the rectifier on the updated node features. -/
abbrev opsN : List (HloOp τ sig (Elt F)) :=
  [ TRef.nullary main_call1.cst (constant S_ .f32 0x00000000#32),
    TRef.unary main_call1.cst main_call1.v0 (broadcastInDim S100000x128 ![] bcast_S_S100000x128),
    TRef.binary (.of main_v30 : TRef sig ⟨S100000x128, .f32⟩) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v30 : TRef sig ⟨S100000x128, .f32⟩) main_call1.v3 mulf,
    TRef.ternary main_call1.v1 (.of main_v30 : TRef sig ⟨S100000x128, .f32⟩) main_call1.v3 main_call1_call0.v0 select ]

/-- The program's operations are the four stretches one after the other. -/
theorem ops_split : (ops : List (HloOp τ sig (Elt F))) = opsA ++ (opsE ++ (opsB ++ opsN)) := rfl

/-! ## The first stretch -/

theorem A_v15 (V : Valuation τ sig (Elt F)) :
    after opsA V (main_v15 : DevRef τ sig)
      = Host.dotGeneral dot_S1600000x160_S160x128_S1600000x128_1_0_0_1_n_n none
          (concatenate S1600000x160 1
            [⟨S1600000x64, gath (V (main_arg0 : DevRef τ sig)) (V (main_arg2 : DevRef τ sig))⟩,
             ⟨S1600000x64, gath (V (main_arg0 : DevRef τ sig)) (V (main_arg3 : DevRef τ sig))⟩,
             ⟨S1600000x32, V (main_arg1 : DevRef τ sig)⟩]
            concatenates_S1600000x64_S1600000x64_S1600000x32_S1600000x160_d1)
          (V (main_arg4 : DevRef τ sig)) := by
  after_results_simp3
  rfl

theorem A_arg0 (V : Valuation τ sig (Elt F)) :
    after opsA V (main_arg0 : DevRef τ sig) = V (main_arg0 : DevRef τ sig) := by
  after_results_simp3

theorem A_arg3 (V : Valuation τ sig (Elt F)) :
    after opsA V (main_arg3 : DevRef τ sig) = V (main_arg3 : DevRef τ sig) := by
  after_results_simp3

theorem A_arg5 (V : Valuation τ sig (Elt F)) :
    after opsA V (main_arg5 : DevRef τ sig) = V (main_arg5 : DevRef τ sig) := by
  after_results_simp3

/-! ## The rectifier on the messages -/

theorem E_v16 (V : Valuation τ sig (Elt F)) :
    after opsE V (main_v16 : DevRef τ sig) = leakyE (V (main_v15 : DevRef τ sig)) := by
  after_results_simp3
  rfl

theorem E_arg0 (V : Valuation τ sig (Elt F)) :
    after opsE V (main_arg0 : DevRef τ sig) = V (main_arg0 : DevRef τ sig) := by
  after_results_simp3

theorem E_arg3 (V : Valuation τ sig (Elt F)) :
    after opsE V (main_arg3 : DevRef τ sig) = V (main_arg3 : DevRef τ sig) := by
  after_results_simp3

theorem E_arg5 (V : Valuation τ sig (Elt F)) :
    after opsE V (main_arg5 : DevRef τ sig) = V (main_arg5 : DevRef τ sig) := by
  after_results_simp3

/-! ## The mean per node and the second product -/

theorem B_v30 (V : Valuation τ sig (Elt F)) :
    after opsB V (main_v30 : DevRef τ sig)
      = Host.dotGeneral dot_S100000x192_S192x128_S100000x128_1_0_0_1_n_n none
          (concatenate S100000x192 1
            [⟨S100000x64, V (main_arg0 : DevRef τ sig)⟩,
             ⟨S100000x128, agg (V (main_arg3 : DevRef τ sig)) (V (main_v16 : DevRef τ sig))⟩]
            concatenates_S100000x64_S100000x128_S100000x192_d1)
          (V (main_arg5 : DevRef τ sig)) := by
  after_results_simp3
  rfl

/-! ## The rectifier on the node features -/

theorem N_v31 (V : Valuation τ sig (Elt F)) :
    after opsN V (main_v31 : DevRef τ sig) = leakyN (V (main_v30 : DevRef τ sig)) := by
  after_results_simp3
  rfl

/-! ## The whole line -/

/-- After the whole program the result buffer holds the layer of the arguments' contents. -/
theorem out_eq (V : Valuation τ sig (Elt F)) :
    after ops V (main_v31 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, Cert.FoldAppend.after_append, Cert.FoldAppend.after_append, Cert.FoldAppend.after_append,
    N_v31, B_v30, E_v16, E_arg0, E_arg3, E_arg5, A_v15, A_arg0, A_arg3, A_arg5]
  rfl

/-! ## The arguments -/

theorem arg0_eq (V : Valuation τ sig (Elt F)) :
    after ops V (main_arg0 : DevRef τ sig) = V (main_arg0 : DevRef τ sig) := by
  after_results_simp3

theorem arg1_eq (V : Valuation τ sig (Elt F)) :
    after ops V (main_arg1 : DevRef τ sig) = V (main_arg1 : DevRef τ sig) := by
  after_results_simp3

theorem arg2_eq (V : Valuation τ sig (Elt F)) :
    after ops V (main_arg2 : DevRef τ sig) = V (main_arg2 : DevRef τ sig) := by
  after_results_simp3

theorem arg3_eq (V : Valuation τ sig (Elt F)) :
    after ops V (main_arg3 : DevRef τ sig) = V (main_arg3 : DevRef τ sig) := by
  after_results_simp3

theorem arg4_eq (V : Valuation τ sig (Elt F)) :
    after ops V (main_arg4 : DevRef τ sig) = V (main_arg4 : DevRef τ sig) := by
  after_results_simp3

theorem arg5_eq (V : Valuation τ sig (Elt F)) :
    after ops V (main_arg5 : DevRef τ sig) = V (main_arg5 : DevRef τ sig) := by
  after_results_simp3

/-- On every device, from any memory with zero counters: every weakly fair execution of the reference program
    terminates with its result buffer at the layer of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v31)
          = Cert.Mpnn.refOut (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v31).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_fold m ρ)

end Cert.ReferenceIdeal.Hand

end
-- ==== Proof.lean ====
/-
  The message-passing layer: the Pallas kernel against its jnp reference, on the extended reals.

  Both programs compute, from node features h, edge features e, endpoints src and dst and two weight matrices,
      m   = leaky([h[src] | h[dst] | e] M)            one message per edge,
      h_N = mean over the edges into each node of m   (a node with no incoming edge gets 0),
      out = leaky([h | h_N] U)                        one updated feature row per node.
  The kernel gathers on the host, computes m in one region over blocks of 8000 edges as three partial products against
  the row slices of M, aggregates on the host, and computes out in a second region over blocks of 5000 nodes as two
  partial products against the row slices of U; it narrows its operands to bfloat16 on the way, which changes no
  extended real. The reference takes one product with each joined array.

  The proof: each region's output array is one function of the arrays the region finds (its blocks are the blocks of
  that function, and they cover the array); reading the host operations around the regions gives the kernel's result
  as one function of the six arguments; the reference's result is read off its straight line of host operations; and
  the two functions are equal because a sum over the joined axis is the sum of the sums over its consecutive ranges —
  the gathers, the mean aggregation and the rectifier being the same operations of the same arrays on both sides. No
  finiteness is used. The kernel's idealization rewrote nothing, so there is nothing to preserve.
-/
import proofs.«106164_j70626442215972_1_alg».proof.Defs
import proofs.«106164_j70626442215972_1_alg».proof.Proof.Gen.Kernel
import proofs.«106164_j70626442215972_1_alg».proof.Proof.Gen.Kernel.Frame
import proofs.«106164_j70626442215972_1_alg».proof.Proof.Gen.KernelIdeal
import proofs.«106164_j70626442215972_1_alg».proof.Proof.Gen.KernelIdeal.Frame
import proofs.«106164_j70626442215972_1_alg».proof.Proof.Gen.ReferenceIdeal
import proofs.«106164_j70626442215972_1_alg».proof.Proof.Gen.Pre_finite_inputs
import proofs.«106164_j70626442215972_1_alg».proof.Proof.KernelRun
import proofs.«106164_j70626442215972_1_alg».proof.Proof.KernelValue
import proofs.«106164_j70626442215972_1_alg».proof.Proof.RefRun
import proofs.«106164_j70626442215972_1_alg».proof.Proof.Bridge
import Idealize.ShloMosaic.PureOps.Ideal
import Idealize.ShloMosaic.Adequacy
import Idealize.ShloMosaic.Init

noncomputable section

namespace Cert.Proof

open Idealize.ShloMosaic Idealize.ShloMosaic.TcCoe Idealize.SL.Sem

/-- The printed kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories that agree on the six arguments both programs end with the kernel's function of them in their result
    buffers: the kernel by its run read through both regions, the reference by its run and the equality of the two
    functions. -/
theorem algebraic : Cert.algebraic_KernelIdeal_ReferenceIdeal := by
  intro m ρ m' ρ' _ hagree
  refine ⟨fun c => Cert.Mpnn.kernOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bounds.out_eq m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2]
    exact Cert.Mpnn.refOut_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
